-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S30000x2048 : Shape := ⟨2, ![30000, 2048]⟩
abbrev S30000 : Shape := ⟨1, ![30000]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S30000x2048 : S_.BroadcastsInDim S30000x2048 (![] : Fin 0 → Fin S30000x2048.rank)
  reducesTo_S30000x2048_S_d0_1 : S30000x2048.ReducesTo [0, 1] S_
  bcast_S_S30000 : S_.BroadcastsInDim S30000 (![] : Fin 0 → Fin S30000.rank)
  reducesTo_S30000_S_d0 : S30000.ReducesTo [0] S_

variable [Facts]

def fn_part1 {F : FTy → Type} [FloatOps F] (main_arg4 : FVec F S2048 .f32) (main_arg5 : FVec F S30000x2048 .f32) (main_arg6 : FVec F S30000 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S30000x2048 .f32 := Host.absf main_arg5
  let main_cst_8 : FVec F S_ .f32 := constant S_ .f32 0x7F800000#32
  let main_v25 : FVec F S30000x2048 .f32 := broadcastInDim S30000x2048 ![] bcast_S_S30000x2048 main_cst_8
  let main_v26 : IVec S30000x2048 1 := cmpf .olt main_v24 main_v25
  let main_c_9 : IVec S_ 1 := constantI S_ 1 1#1
  let main_v27 : IVec S_ 1 := (fun x v => Host.reduce IntOp.andi x v reducesTo_S30000x2048_S_d0_1 h_S_) main_v26 main_c_9
  let main_v28 : IVec S_ 1 := andi main_v23 main_v27
  let main_v29 : FVec F S30000 .f32 := Host.absf main_arg6
  let main_cst_10 : FVec F S_ .f32 := constant S_ .f32 0x7F800000#32
  let main_v30 : FVec F S30000 .f32 := broadcastInDim S30000 ![] bcast_S_S30000 main_cst_10
  let main_v31 : IVec S30000 1 := cmpf .olt main_v29 main_v30
  let main_c_11 : IVec S_ 1 := constantI S_ 1 1#1
  let main_v32 : IVec S_ 1 := (fun x v => Host.reduce IntOp.andi x v reducesTo_S30000_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048 .f32) (main_arg3 : FVec F S2048 .f32) (main_arg4 : FVec F S2048 .f32) (main_arg5 : FVec F S30000x2048 .f32) (main_arg6 : FVec F S30000 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S30000x2048 : Shape := ⟨2, ![30000, 2048]⟩
abbrev S30000 : Shape := ⟨1, ![30000]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S1x30000 : Shape := ⟨2, ![1, 30000]⟩
abbrev S4096x30000 : Shape := ⟨2, ![4096, 30000]⟩
abbrev S1024x2048 : Shape := ⟨2, ![1024, 2048]⟩
abbrev S1280x2048 : Shape := ⟨2, ![1280, 2048]⟩
abbrev S1x1280 : Shape := ⟨2, ![1, 1280]⟩
abbrev S1024x1280 : Shape := ⟨2, ![1024, 1280]⟩

abbrev nBuf : Space → Nat
  | .hbm => 15
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S30000x2048, .f32⟩
  | .hbm, ⟨6, _⟩ => ⟨S30000, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S4096x2048, .bf16⟩
  | .hbm, ⟨12, _⟩ => ⟨S30000x2048, .bf16⟩
  | .hbm, ⟨13, _⟩ => ⟨S1x30000, .f32⟩
  | .hbm, ⟨14, _⟩ => ⟨S4096x30000, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1280x2048, .bf16⟩
  | .local _ .vmem, ⟨11, _⟩ => ⟨S1280x2048, .bf16⟩
  | .local _ .vmem, ⟨12, _⟩ => ⟨S1x1280, .f32⟩
  | .local _ .vmem, ⟨13, _⟩ => ⟨S1x1280, .f32⟩
  | .local _ .vmem, ⟨14, _⟩ => ⟨S1024x1280, .f32⟩
  | .local _ .vmem, ⟨15, _⟩ => ⟨S1024x1280, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  shapeCasts_S30000_S1x30000 : S30000.ShapeCasts S1x30000
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  dot_S512x2048_S2048x2048_S512x2048_1_1_0_0_n_n_wf : DotDims.WF S512x2048 S2048x2048 S512x2048 [1] [1] [0] [0] [] []
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .bf16 = 32 ∨ (Rect.block (s := S4096x2048) S512x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .bf16 = 32 ∨ (Rect.block (s := S4096x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1280x2048.size a < S30000x2048.size a
  hwx1_1 : ∀ i : grid1.Coords, EltTy.bits .bf16 = 32 ∨ (Rect.unit (s := S30000x2048) (fun a => cc1_transform_1 i a * S1280x2048.size a) (fun a => (Pipeline.Clip.of (cc1_transform_1 i a) (S1280x2048.size a) (S30000x2048.size a)).extent (S1280x2048.size a)) fun a => Pipeline.Clip.inb (Pipeline.Clip.ok_of (hstart1_1 i a))).WholeWords (EltTy.packing .bf16)
  hwxs1_1 : ∀ i : grid1.Coords, EltTy.bits .bf16 = 32 ∨ (Rect.unit (s := S1280x2048) (fun _ => 0) (fun a => (Pipeline.Clip.of (cc1_transform_1 i a) (S1280x2048.size a) (S30000x2048.size a)).extent (S1280x2048.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1280.size a < S1x30000.size a
  hwx1_2 : ∀ i : grid1.Coords, EltTy.bits .f32 = 32 ∨ (Rect.unit (s := S1x30000) (fun a => cc1_transform_2 i a * S1x1280.size a) (fun a => (Pipeline.Clip.of (cc1_transform_2 i a) (S1x1280.size a) (S1x30000.size a)).extent (S1x1280.size a)) fun a => Pipeline.Clip.inb (Pipeline.Clip.ok_of (hstart1_2 i a))).WholeWords (EltTy.packing .f32)
  hwxs1_2 : ∀ i : grid1.Coords, EltTy.bits .f32 = 32 ∨ (Rect.unit (s := S1x1280) (fun _ => 0) (fun a => (Pipeline.Clip.of (cc1_transform_2 i a) (S1x1280.size a) (S1x30000.size a)).extent (S1x1280.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x1280.size a < S4096x30000.size a
  hwx1_3 : ∀ i : grid1.Coords, EltTy.bits .f32 = 32 ∨ (Rect.unit (s := S4096x30000) (fun a => cc1_transform_3 i a * S1024x1280.size a) (fun a => (Pipeline.Clip.of (cc1_transform_3 i a) (S1024x1280.size a) (S4096x30000.size a)).extent (S1024x1280.size a)) fun a => Pipeline.Clip.inb (Pipeline.Clip.ok_of (hstart1_3 i a))).WholeWords (EltTy.packing .f32)
  hwxs1_3 : ∀ i : grid1.Coords, EltTy.bits .f32 = 32 ∨ (Rect.unit (s := S1024x1280) (fun _ => 0) (fun a => (Pipeline.Clip.of (cc1_transform_3 i a) (S1024x1280.size a) (S4096x30000.size a)).extent (S1024x1280.size a)) fun a => (Nat.zero_add _).trans_le (Pipeline.Clip.extent_le (Pipeline.Clip.ok_of (hstart1_3 i a)))).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v5) S1280x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v6) S1x1280.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v7) S1024x1280.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S30000x2048 : Shape := ⟨2, ![30000, 2048]⟩
abbrev S30000 : Shape := ⟨1, ![30000]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S4096x30000 : Shape := ⟨2, ![4096, 30000]⟩
abbrev S1x30000 : Shape := ⟨2, ![1, 30000]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S30000x2048, .f32⟩
  | .hbm, ⟨6, _⟩ => ⟨S30000, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x30000, .f32⟩
  | .hbm, ⟨41, _⟩ => ⟨S1x30000, .f32⟩
  | .hbm, ⟨42, _⟩ => ⟨S4096x30000, .f32⟩
  | .hbm, ⟨43, _⟩ => ⟨S4096x30000, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S30000_S1x30000_1 : S30000.BroadcastsInDim S1x30000 (![1] : Fin 1 → Fin S1x30000.rank)
  bcast_S1x30000_S4096x30000_0_1 : S1x30000.BroadcastsInDim S4096x30000 (![0, 1] : Fin 2 → Fin S4096x30000.rank)
  dot_S4096x2048_S2048x2048_S4096x2048_1_1_0_0_n_n_wf : DotDims.WF S4096x2048 S2048x2048 S4096x2048 [1] [1] [0] [0] [] []
  dot_S4096x2048_S30000x2048_S4096x30000_1_1_0_0_n_n_wf : DotDims.WF S4096x2048 S30000x2048 S4096x30000 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf
def dot_S4096x2048_S30000x2048_S4096x30000_1_1_0_0_n_n : DotDims S4096x2048 S30000x2048 S4096x30000 where
  lhsContracting := [1]
  rhsContracting := [1]
  lhsNonContracting := [0]
  rhsNonContracting := [0]
  lhsBatch := []
  rhsBatch := []
  wf := dot_S4096x2048_S30000x2048_S4096x30000_1_1_0_0_n_n_wf

class Facts : Prop extends Facts₀ where

variable [Facts]
-- ==== Proof.Region0K.lean ====
/-
  The first kernel region (the fused linear layer and layer normalisation over blocks of 512 rows), at ANY float
  instance and at a parameter `V`, the contents of the core's buffers when the region is entered. Each of the five
  input windows' staging buffers holds, whenever the body runs, that window's block of its array — the activation's
  512 rows at the point, and for the weight, bias, scale and shift the whole array, fetched once and found again at
  every later point. The body loads the five whole buffers and stores ONE whole block: the result window's buffer
  ends holding the body's arithmetic (the payload of the store) of the five loaded blocks. From these: the proof
  data of the region (what every staging buffer holds after the body at every point) and the body's obligation.
-/
import proofs.«117770_j56444460204607_2_alg».proof.Proof.Gen.Kernel.Launch
import proofs.«117770_j56444460204607_2_alg».proof.Proof.Gen.Kernel.Skeleton
import proofs.«117770_j56444460204607_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    point has the same block index as the one before it), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    point has the same block index as the one before it), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    point has the same block index as the one before it), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    point has the same block index as the one before it), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    point has the same block index as the one before it), for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_a : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0
abbrev r0_v : Rect S1x2048 := Rect.unit (s := S1x2048) ![0, 0] S1x2048.size inb_S1x2048_S1x2048_0_0

/-- The result window's staging buffer after the body, from the five input blocks: its one store, of the body's
    arithmetic of the five whole loads. -/
def out0_5 (x0 : Vec F S512x2048 .f32) (x1 : Vec F S2048x2048 .bf16) (x2 x3 x4 : Vec F S1x2048 .f32) : Vec F S512x2048 .bf16 :=
  View.canon [⟨r0_a, k0_pay1 (View.ld x0 r0_a) (View.ld x1 r0_w) (View.ld x2 r0_v) (View.ld x3 r0_v) (View.ld x4 r0_v)⟩]

/-- The one store is of the whole buffer, so it covers it. -/
theorem cover0_5 (p0 : Vec F S512x2048 .bf16) (y : S512x2048.Idx) :
    ∃ pc ∈ ([⟨r0_a, p0⟩] : List (View.Piece (Elt F) S512x2048 .bf16)), y ∈ pc.1.set :=
  View.cover_of_tiled [⟨r0_a, p0⟩] S512x2048.size (by rfl) y

/-! ## The body's triple -/

set_option maxHeartbeats 2000000 in
/-- The body on whole staging memrefs — the inputs' at read contents `x0 … x4`, the result's at anything — runs to
    the continuation with the inputs' as they were and the result's at `out0_5` of them. -/
theorem sound_kernel0 (c : Dev nD) (E : Set ℕ) (i : grid0.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S512x2048 .bf16) (harg6 : arg6.IsWhole)
    (x0 : Vec F S512x2048 .f32) (x1 : Vec F S2048x2048 .bf16) (x2 x3 x4 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__stage1_kernel i arg1 harg1 arg2 harg2 arg3 harg3 arg4 harg4 arg5 harg5 arg6 harg6) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- The proof data of the first region on core `c`: the arrays as the region finds them; after the body at point `t`
    each input's buffer at its block and the result's at `out0_5` of the five blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Region1K.lean ====
/-
  The second kernel region (the second linear layer over blocks of 1024 rows by 1280 columns), at ANY float instance
  and at a parameter `V`, the contents of the core's buffers when the region is entered. The 30000 columns are not a
  multiple of 1280: the last column block of the weight, the bias and the result overhangs its array, its transfers
  are cut at the array's end, and a staging buffer just fetched holds the array's part on its leading rows (columns)
  and, past them, words nothing names. The body loads the three whole input buffers and stores one whole block. What
  it leaves in the result's buffer is stated on the part that is written back only; that this part does not depend
  on the unnamed words is a fact about the body's arithmetic (`FillIndep`) that holds where a matrix product's entry
  is a function of one row of each operand. For a claim that reads nothing of the result (that the program runs and
  leaves its arguments alone) the three cut windows are handed over and taken back at any contents.
-/
import proofs.«117770_j56444460204607_2_alg».proof.Proof.Gen.Kernel.Launch
import proofs.«117770_j56444460204607_2_alg».proof.Proof.Gen.Kernel.Skeleton
import proofs.«117770_j56444460204607_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t` — its part inside the array — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation's window is not cut: its current staging buffer holds its block at every point, fetched there or
    not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's window is cut at the array's end: its current staging buffer holds its block on the leading rows and
    `d` past them (the cut is a function of the block index alone). -/
theorem before1_1_of {c : Dev nD} (dat : Dat τ (Elt F) Unit ℕ (UR sig nD τ) ℕ cfg1 c) (hA : dat.A 1 = V c (Pipeline.arrRef spec1 1))
    (hkeep : ∀ t, (cfg1.win 1).cut (cfg1.grid.coords t) (dat.after 1 t) = iblk1 V c 1 t) (t : Fin cfg1.N) (d) :
    dat.before 1 t d = (cfg1.win 1).fill (cfg1.grid.coords t) d (iblk1 V c 1 t) :=
  (dat.before_in_eq_fetched 1 rfl (fun _ => rfl)
    (fun t t' h => funext fun a => by
      show Pipeline.Clip.of (cc1_transform_1 (grid1.coords t) a) _ _ = Pipeline.Clip.of (cc1_transform_1 (grid1.coords t') a) _ _
      rw [show cc1_transform_1 (grid1.coords t) = cc1_transform_1 (grid1.coords t') from h])
    (fun t => by rw [hkeep]; unfold Dat.blockOf iblk1; rw [hA]; try rfl) t d).trans
    (by unfold Dat.fetched Dat.blockOf iblk1; rw [hA]; try rfl)

/-- The bias's window likewise, on the leading columns. -/
theorem before1_2_of {c : Dev nD} (dat : Dat τ (Elt F) Unit ℕ (UR sig nD τ) ℕ cfg1 c) (hA : dat.A 2 = V c (Pipeline.arrRef spec1 2))
    (hkeep : ∀ t, (cfg1.win 2).cut (cfg1.grid.coords t) (dat.after 2 t) = iblk1 V c 2 t) (t : Fin cfg1.N) (d) :
    dat.before 2 t d = (cfg1.win 2).fill (cfg1.grid.coords t) d (iblk1 V c 2 t) :=
  (dat.before_in_eq_fetched 2 rfl (fun _ => rfl)
    (fun t t' h => funext fun a => by
      show Pipeline.Clip.of (cc1_transform_2 (grid1.coords t) a) _ _ = Pipeline.Clip.of (cc1_transform_2 (grid1.coords t') a) _ _
      rw [show cc1_transform_2 (grid1.coords t) = cc1_transform_2 (grid1.coords t') from h])
    (fun t => by rw [hkeep]; unfold Dat.blockOf iblk1; rw [hA]; try rfl) t d).trans
    (by unfold Dat.fetched Dat.blockOf iblk1; rw [hA]; try rfl)

/-! ## The body's accesses: each a whole buffer -/

abbrev r1_h : Rect S1024x2048 := Rect.unit (s := S1024x2048) ![0, 0] S1024x2048.size inb_S1024x2048_S1024x2048_0_0
abbrev r1_w : Rect S1280x2048 := Rect.unit (s := S1280x2048) ![0, 0] S1280x2048.size inb_S1280x2048_S1280x2048_0_0
abbrev r1_b : Rect S1x1280 := Rect.unit (s := S1x1280) ![0, 0] S1x1280.size inb_S1x1280_S1x1280_0_0
abbrev r1_o : Rect S1024x1280 := Rect.unit (s := S1024x1280) ![0, 0] S1024x1280.size inb_S1024x1280_S1024x1280_0_0

/-- The result window's staging buffer after the body, from what the three input buffers hold: its one store, of the
    body's arithmetic of the three whole loads. -/
def out1_3 (x0 : Vec F S1024x2048 .bf16) (x1 : Vec F S1280x2048 .bf16) (x2 : Vec F S1x1280 .f32) : Vec F S1024x1280 .f32 :=
  View.canon [⟨r1_o, k1_pay1 (View.ld x0 r1_h) (View.ld x1 r1_w) (View.ld x2 r1_b)⟩]

/-- The one store is of the whole buffer, so it covers it. -/
theorem cover1_3 (p0 : Vec F S1024x1280 .f32) (y : S1024x1280.Idx) :
    ∃ pc ∈ ([⟨r1_o, p0⟩] : List (View.Piece (Elt F) S1024x1280 .f32)), y ∈ pc.1.set :=
  View.cover_of_tiled [⟨r1_o, p0⟩] S1024x1280.size (by rfl) y

/-! ## The body's triple -/

set_option maxHeartbeats 2000000 in
/-- The body on whole staging memrefs — the inputs' at read contents `x0 x1 x2`, the result's at anything — runs to
    the continuation with the inputs' as they were and the result's at `out1_3` of them. -/
theorem sound_kernel1 (c : Dev nD) (E : Set ℕ) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1280 .f32) (harg5 : arg5.IsWhole)
    (x0 : Vec F S1024x2048 .bf16) (x1 : Vec F S1280x2048 .bf16) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__stage2_kernel i arg2 harg2 arg3 harg3 arg4 harg4 arg5 harg5) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The word that fills a cut window's named contents past the array's end: nothing reads it. -/
abbrev z16 : Elt F .bf16 := Scalar.ofBits .bf16 0#16
abbrev z32 : Elt F .f32 := Scalar.ofBits .f32 0#32

/-- The weight's and the bias's blocks filled out to whole buffers. -/
def wblk (c : Dev nD) (t : Fin cfg1.N) : Vec F S1280x2048 .bf16 := (cfg1.win 1).fill (cfg1.grid.coords t) (fun _ => z16) (iblk1 V c 1 t)
def bblk (c : Dev nD) (t : Fin cfg1.N) : Vec F S1x1280 .f32 := (cfg1.win 2).fill (cfg1.grid.coords t) (fun _ => z32) (iblk1 V c 2 t)

/-- The proof data of the second region on core `c`: the arrays as the region finds them; after the body at point `t`
    the activation's buffer at its block, the weight's and the bias's at their blocks filled out, the result's at the
    body's arithmetic of those; the invariant is the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => out1_3 (iblk1 V c 0 t) (wblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) :
    (dat1 V c).after 3 t = out1_3 (iblk1 V c 0 t) (wblk V c t) (bblk V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) :
    (dat1 V c).before 1 t d = (cfg1.win 1).fill (cfg1.grid.coords t) d (iblk1 V c 1 t) :=
  before1_1_of V (dat1 V c) (A_eq1 V c 1) (fun t => by rw [after1_1]; exact (cfg1.win 1).cut_fill _ _ _) t d
theorem before1_2 (c : Dev nD) (t : Fin cfg1.N) (d) :
    (dat1 V c).before 2 t d = (cfg1.win 2).fill (cfg1.grid.coords t) d (iblk1 V c 2 t) :=
  before1_2_of V (dat1 V c) (A_eq1 V c 2) (fun t => by rw [after1_2]; exact (cfg1.win 2).cut_fill _ _ _) t d

/-! ## The body obligation -/

/-- The written-back part of the body's result does not depend on what fills the two cut input buffers past their
    arrays' ends. -/
def FillIndep : Prop :=
  ∀ (t : Fin cfg1.N) (x0 : Vec F S1024x2048 .bf16) (d1 d1' : (cfg1.win 1).block.Idx → Elt F (cfg1.win 1).elt)
    (d2 d2' : (cfg1.win 2).block.Idx → Elt F (cfg1.win 2).elt)
    (b1 : ((cfg1.win 1).xblock (cfg1.grid.coords t)).Idx → Elt F (cfg1.win 1).elt) (b2 : ((cfg1.win 2).xblock (cfg1.grid.coords t)).Idx → Elt F (cfg1.win 2).elt),
    (cfg1.win 3).cut (cfg1.grid.coords t) (out1_3 x0 ((cfg1.win 1).fill (cfg1.grid.coords t) d1 b1) ((cfg1.win 2).fill (cfg1.grid.coords t) d2 b2))
      = (cfg1.win 3).cut (cfg1.grid.coords t) (out1_3 x0 ((cfg1.win 1).fill (cfg1.grid.coords t) d1' b1) ((cfg1.win 2).fill (cfg1.grid.coords t) d2' b2))

/-- What the body is called with at point `t`, the windows one by one (every buffer at what it then holds); -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the uncut window's buffer at what the body leaves, each cut window's at that on its
    written-back part and at anything elsewhere. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ d, owns (c : Thread nD τ) (st1_3 t) fullShare ((cfg1.win 3).fill (cfg1.grid.coords t) d ((cfg1.win 3).cut (cfg1.grid.coords t) ((dat1 V c).after 3 t)))))

/-- The body at any point, where its arithmetic is local: the cut inputs' buffers hold their blocks on the leading part
    and anything past it; what the body then leaves in the result's buffer agrees, on the written-back part, with what
    it would have left had the rest been the filler word. -/
theorem sound_body1 (hind : FillIndep (F := F)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ _ _ _ _ _ _ _ _ _ (iblk1 V c 0 t)
    ((cfg1.win 1).fill (cfg1.grid.coords t) d1 (iblk1 V c 1 t)) ((cfg1.win 2).fill (cfg1.grid.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after1_0]; iexact H0
  isplitl [H1]
  · iexists d1; rw [after1_1]; unfold wblk; rw [(cfg1.win 1).cut_fill]; iexact H1
  isplitl [H2]
  · iexists d2; rw [after1_2]; unfold bblk; rw [(cfg1.win 2).cut_fill]; iexact H2
  · iexists (out1_3 (iblk1 V c 0 t) ((cfg1.win 1).fill (cfg1.grid.coords t) d1 (iblk1 V c 1 t)) ((cfg1.win 2).fill (cfg1.grid.coords t) d2 (iblk1 V c 2 t)))
    rw [after1_3]; unfold wblk bblk
    have h3 := (cfg1.win 3).fill_congr_cut (cfg1.grid.coords t)
      (hind t (iblk1 V c 0 t) d1 (fun _ => z16) d2 (fun _ => z32) (iblk1 V c 1 t) (iblk1 V c 2 t))
    erw [h3]
    iexact H3

/-- The obligation with every buffer's written-back part named, where the body's arithmetic is local (`FillIndep`). -/
theorem body_obligation1 (hind : FillIndep (F := F)) (c : Dev nD) :
    BodyObligationLoose (dat1 (F := F) V c) (defs₀ (F := F)) Variants.none () Set.univ := fun t => by
  rw [bigSep_W1, bigSep_W1]
  exact sound_body1 V hind c t

/-- Which windows a claim that reads nothing of the result hands over and takes back at any contents: the three cut
    ones. -/
abbrev forgets1 : Fin cfg1.W → Bool := fun w => match w with | ⟨0, _⟩ => false | ⟨1, _⟩ => true | ⟨2, _⟩ => true | ⟨3, _⟩ => true

/-- The body at any point with the three cut windows at any contents, at any float instance. -/
theorem sound_body1_forget (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ X, owns (c : Thread nD τ) (st1_1 t) fullShare X) ∗ (∃ X, owns (c : Thread nD τ) (st1_2 t) fullShare X)
        ∗ (∃ X, owns (c : Thread nD τ) (st1_3 t) fullShare X))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ (∃ X, owns (c : Thread nD τ) (st1_1 t) fullShare X) ∗ (∃ X, owns (c : Thread nD τ) (st1_2 t) fullShare X)
            ∗ (∃ X, owns (c : Thread nD τ) (st1_3 t) fullShare X))) := by
  unfold bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%x1, H1⟩, ⟨%x2, H2⟩, ⟨%x3, H3⟩⟩
  rw [before1_0 V c t d0]
  iapply (sound_kernel1 c Set.univ _ _ _ _ _ _ _ _ _ (iblk1 V c 0 t) x1 x2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after1_0]; iexact H0
  isplitl [H1]; · iexists _; iexact H1
  isplitl [H2]; · iexists _; iexact H2
  · iexists _; iexact H3

/-- The obligation with the three cut windows at any contents, at any float instance. -/
theorem body_obligation1_forget (c : Dev nD) :
    BodyObligationLoose (dat1 (F := F) V c) (defs₀ (F := F)) Variants.none () Set.univ forgets1 := fun t => by
  rw [bigSep_W1, bigSep_W1]
  exact sound_body1_forget V c t

end Cert.Kernel.Hand

end
-- ==== Proof.RunIK.lean ====
/-
  The run of the whole program at any float instance where the second kernel's arithmetic is local (`FillIndep`):
  @main is a stretch of host operations (the weight's change of format, three reshapes), the first kernel region,
  a second stretch (the second weight's change of format, a reshape) and the second kernel region. The contents of
  the core's buffers at each boundary are a fold from the launch memory: a stretch applies its operations, a
  region leaves its arrays at what its write-backs make of them and every other buffer alone. Every weakly fair
  execution terminates, nothing faulting, and ends with every buffer the program keeps outside a kernel at the last
  boundary's contents: in particular the seven arguments as launched and the result at what the second region's
  write-backs leave.
-/
import proofs.«117770_j56444460204607_2_alg».proof.Proof.Gen.Kernel.Launch
import proofs.«117770_j56444460204607_2_alg».proof.Proof.Gen.Kernel.Skeleton
import proofs.«117770_j56444460204607_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117770_j56444460204607_2_alg».proof.Proof.Gen.Kernel.Regions
import proofs.«117770_j56444460204607_2_alg».proof.Proof.Region0K
import proofs.«117770_j56444460204607_2_alg».proof.Proof.Region1K
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch; -/
abbrev W0 : Dev nD → Valuation τ sig (Elt F) := fun c b => m (c, b)
/-- after the first stretch of host operations (the first region's entry); -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit: its arrays at what the pipeline leaves, every other buffer as entered; -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the second stretch (the second region's entry); -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- at the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer no operation of the first stretch writes is, after it, as launched; -/
theorem W1_of (c : Dev nD) (r : Ref sig .tc) (h : r ∉ hostOps0_W) : W1 m c r = W0 m c r :=
  StableHlo.after_of_writes_sub hostOps0 _ hostOps0_writes h
/-- one no operation of the second stretch writes is, after it, as the first region left it. -/
theorem W3_of (c : Dev nD) (r : Ref sig .tc) (h : r ∉ hostOps1_W) : W3 m c r = W2 m c r :=
  StableHlo.after_of_writes_sub hostOps1 _ hostOps1_writes h

/-! ### The arguments end as launched: no host operation writes one, and a region reads one through an input window
    or not at all -/

/-- The activation is the first region's input window 0: never written. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
/-- Argument 1 is no window's array of either region. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
/-- Argument 2 is no window's array of either region. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- Argument 3 is no window's array of either region. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
/-- Argument 4 is no window's array of either region. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
/-- Argument 5 is no window's array of either region. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
/-- Argument 6 is no window's array of either region. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A stretch of host operations as a segment over the buffers the program keeps outside a kernel, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every such buffer at the last boundary's contents, the register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every buffer at `W1`, left at `W2`. Its arrays are split out
    of the buffers and put back at the exit contents; the generator register goes into the invariant and comes out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region likewise: entered from every buffer at `W3`, left at `W4`. -/
def reg1 (hind : FillIndep (F := F)) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) hind c
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs (hind : FillIndep (F := F)) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m hind) ]

theorem main_run (hind : FillIndep (F := F)) (c : Dev nD) : main (F := F) c = Pipeline.Seg.run (segs m hind) :=
  (main_chain c).trans (by chain_rfl)

set_option backward.isDefEq.respectTransparency.types false in
/-- THE RUN: from any memory with zero counters every weakly fair execution of @main terminates, nothing faulting, and
    every final state holds every buffer the program keeps outside a kernel at the last boundary's contents. -/
theorem run (hind : FillIndep (F := F)) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hind)
    (fun c Q => by rw [main_run m hind c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.RunK.lean ====
/-
  The run of the program as printed, at any float instance, for the claim that it runs to the end, faults nowhere
  and leaves its arguments alone. Where a matrix product's entry is not known to depend on one row of each operand
  alone, what the second kernel leaves in its cut result blocks cannot be named in advance (it may depend on the
  unnamed words past the arrays' ends), so the second region's three cut windows are handed to the body and taken
  back at any contents, and the result array ends at SOME contents. The first region is exact as before — the second
  reads its result — and nothing runs after the second. The seven arguments are read back at the end off the buffers
  the second region does not window (every argument is one of them).
-/
import proofs.«117770_j56444460204607_2_alg».proof.Proof.Gen.Kernel.Launch
import proofs.«117770_j56444460204607_2_alg».proof.Proof.Gen.Kernel.Skeleton
import proofs.«117770_j56444460204607_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117770_j56444460204607_2_alg».proof.Proof.Gen.Kernel.Regions
import proofs.«117770_j56444460204607_2_alg».proof.Proof.RunIK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arguments at the second region's entry are as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-! ## The proof data read relationally: the first region exact, the second with its cut windows forgotten -/

def rdats : (p : Fin 2) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toRForget forgets1

/-- The last thread state without the debts: the second region's arrays at some contents they may hold after its
    write-backs, every other buffer as the region was entered, the register at some state. -/
abbrev TₙK (c : Dev nD) : sProp 𝕄 :=
  iprop((rdats m 1 c).arraysAt cfg1.N
    ∗ Pipeline.unscopedRest (Ix := Unit) (Name := ℕ) (U := UR sig nD τ) (Lvl := ℕ) spec1 c (V3 m c) ∗ ∃ r, prngReg c r)

set_option backward.isDefEq.respectTransparency.types false in
/-- The first region, exact: entered from every buffer at `W1`, left at `W2`. -/
def regK0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((dat0 (V1 m) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    rw [show (rdats m 0 c).arraysAt (Pipeline.pin (pcfgs (F := F)) adm 0).N = (pdats m 0 c).arrays ((pdats m 0 c).arrAt · cfg0.N)
      from (dat0 (V1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second region with its cut windows forgotten: entered from every buffer at `W3`; left with its arrays at
    some contents and the buffers it does not window as entered. -/
def regK1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1_forget (V3 m) c).toRForget
  hwaits := Pipeline.RDat.hwaits_of_owed_zero _ _ _ _ L lv 1 fun _ _ => rfl
  pre c := iprop(StableHlo.held (c : Thread nD τ) (Pipeline.ucRefs τ sig) (W3 m c) ∗ R c)
  post c := iprop(TₙK m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((dat1 (V3 m) c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segsK : List (Pipeline.RDat.Seg (pcfgs (F := F)) adm (rdats m) () defs₀ 𝒱₀ L lv) :=
  [ .host (hseg hostOps0 hostOps0_sub hostOps0_fresh (W0 m)),
    .region (regK0 m),
    .host (hseg hostOps1 hostOps1_sub hostOps1_fresh (W2 m)),
    .region (regK1 m) ]

theorem main_runK (c : Dev nD) : main (F := F) c = Pipeline.RDat.Seg.run (segsK m) :=
  (main_chain c).trans (by chain_rfl)

set_option backward.isDefEq.respectTransparency.types false in
/-- THE FRAME at any float instance: from any memory with zero counters every weakly fair execution of @main
    terminates, nothing faulting, and every final state has the seven arguments as launched. -/
theorem frameK : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  Pipeline.RDat.θ_run_regions_kit (pcfgs (F := F)) adm (rdats m) () cellOf_inj emb₁ defs₀ 𝒱₀ L lv m ρ main (segsK m)
    (fun c Q => by rw [main_runK m c])
    (by simp only [segsK, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := TₙK m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = m ((c.tc : Thread nD τ).loc main_arg0)
      ∧       s.mem ((c.tc : Thread nD τ).loc main_arg1) = m ((c.tc : Thread nD τ).loc main_arg1)
      ∧       s.mem ((c.tc : Thread nD τ).loc main_arg2) = m ((c.tc : Thread nD τ).loc main_arg2)
      ∧       s.mem ((c.tc : Thread nD τ).loc main_arg3) = m ((c.tc : Thread nD τ).loc main_arg3)
      ∧       s.mem ((c.tc : Thread nD τ).loc main_arg4) = m ((c.tc : Thread nD τ).loc main_arg4)
      ∧       s.mem ((c.tc : Thread nD τ).loc main_arg5) = m ((c.tc : Thread nD τ).loc main_arg5)
      ∧       s.mem ((c.tc : Thread nD τ).loc main_arg6) = m ((c.tc : Thread nD τ).loc main_arg6))
    (hfin := fun c s' => by
      dsimp only [TₙK]; rw [unscopedRest1_eq c (V3 m c)]
      iintro ⟨⟨-, ⟨H0, H1, H2, H3, H4, H5, H6, -⟩, -⟩, HSI⟩
      icombine HSI H0 gives %h0
      icombine HSI H1 gives %h1
      icombine HSI H2 gives %h2
      icombine HSI H3 gives %h3
      icombine HSI H4 gives %h4
      icombine HSI H5 gives %h5
      icombine HSI H6 gives %h6
      imodintro
      isplitr
      · ipureintro
        exact ⟨(Buf.eq_of_forall_mem_univ h0).trans (W3_main_arg0 m c), (Buf.eq_of_forall_mem_univ h1).trans (W3_main_arg1 m c),
          (Buf.eq_of_forall_mem_univ h2).trans (W3_main_arg2 m c), (Buf.eq_of_forall_mem_univ h3).trans (W3_main_arg3 m c),
          (Buf.eq_of_forall_mem_univ h4).trans (W3_main_arg4 m c), (Buf.eq_of_forall_mem_univ h5).trans (W3_main_arg5 m c),
          (Buf.eq_of_forall_mem_univ h6).trans (W3_main_arg6 m c)⟩
      iexact HSI)
    (hQ := fun s h => h)

end Cert.Kernel.Hand

end
-- ==== Proof.Region0.lean ====
/-
  The first kernel region (the fused linear layer and layer normalisation over blocks of 512 rows), at ANY float
  instance and at a parameter `V`, the contents of the core's buffers when the region is entered. Each of the five
  input windows' staging buffers holds, whenever the body runs, that window's block of its array — the activation's
  512 rows at the point, and for the weight, bias, scale and shift the whole array, fetched once and found again at
  every later point. The body loads the five whole buffers and stores ONE whole block: the result window's buffer
  ends holding the body's arithmetic (the payload of the store) of the five loaded blocks. From these: the proof
  data of the region (what every staging buffer holds after the body at every point) and the body's obligation.
-/
import proofs.«117770_j56444460204607_2_alg».proof.Proof.Gen.KernelIdeal.Launch
import proofs.«117770_j56444460204607_2_alg».proof.Proof.Gen.KernelIdeal.Skeleton
import proofs.«117770_j56444460204607_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    point has the same block index as the one before it), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    point has the same block index as the one before it), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    point has the same block index as the one before it), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    point has the same block index as the one before it), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    point has the same block index as the one before it), for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_a : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0
abbrev r0_v : Rect S1x2048 := Rect.unit (s := S1x2048) ![0, 0] S1x2048.size inb_S1x2048_S1x2048_0_0

/-- The result window's staging buffer after the body, from the five input blocks: its one store, of the body's
    arithmetic of the five whole loads. -/
def out0_5 (x0 : Vec F S512x2048 .f32) (x1 : Vec F S2048x2048 .bf16) (x2 x3 x4 : Vec F S1x2048 .f32) : Vec F S512x2048 .bf16 :=
  View.canon [⟨r0_a, k0_pay1 (View.ld x0 r0_a) (View.ld x1 r0_w) (View.ld x2 r0_v) (View.ld x3 r0_v) (View.ld x4 r0_v)⟩]

/-- The one store is of the whole buffer, so it covers it. -/
theorem cover0_5 (p0 : Vec F S512x2048 .bf16) (y : S512x2048.Idx) :
    ∃ pc ∈ ([⟨r0_a, p0⟩] : List (View.Piece (Elt F) S512x2048 .bf16)), y ∈ pc.1.set :=
  View.cover_of_tiled [⟨r0_a, p0⟩] S512x2048.size (by rfl) y

/-! ## The body's triple -/

set_option maxHeartbeats 2000000 in
/-- The body on whole staging memrefs — the inputs' at read contents `x0 … x4`, the result's at anything — runs to
    the continuation with the inputs' as they were and the result's at `out0_5` of them. -/
theorem sound_kernel0 (c : Dev nD) (E : Set ℕ) (i : grid0.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S512x2048 .bf16) (harg6 : arg6.IsWhole)
    (x0 : Vec F S512x2048 .f32) (x1 : Vec F S2048x2048 .bf16) (x2 x3 x4 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__stage1_kernel i arg1 harg1 arg2 harg2 arg3 harg3 arg4 harg4 arg5 harg5 arg6 harg6) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- The proof data of the first region on core `c`: the arrays as the region finds them; after the body at point `t`
    each input's buffer at its block and the result's at `out0_5` of the five blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second kernel region (the second linear layer over blocks of 1024 rows by 1280 columns), at ANY float instance
  and at a parameter `V`, the contents of the core's buffers when the region is entered. The 30000 columns are not a
  multiple of 1280: the last column block of the weight, the bias and the result overhangs its array, its transfers
  are cut at the array's end, and a staging buffer just fetched holds the array's part on its leading rows (columns)
  and, past them, words nothing names. The body loads the three whole input buffers and stores one whole block. What
  it leaves in the result's buffer is stated on the part that is written back only; that this part does not depend
  on the unnamed words is a fact about the body's arithmetic (`FillIndep`) that holds where a matrix product's entry
  is a function of one row of each operand. For a claim that reads nothing of the result (that the program runs and
  leaves its arguments alone) the three cut windows are handed over and taken back at any contents.
-/
import proofs.«117770_j56444460204607_2_alg».proof.Proof.Gen.KernelIdeal.Launch
import proofs.«117770_j56444460204607_2_alg».proof.Proof.Gen.KernelIdeal.Skeleton
import proofs.«117770_j56444460204607_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t` — its part inside the array — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation's window is not cut: its current staging buffer holds its block at every point, fetched there or
    not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's window is cut at the array's end: its current staging buffer holds its block on the leading rows and
    `d` past them (the cut is a function of the block index alone). -/
theorem before1_1_of {c : Dev nD} (dat : Dat τ (Elt F) Unit ℕ (UR sig nD τ) ℕ cfg1 c) (hA : dat.A 1 = V c (Pipeline.arrRef spec1 1))
    (hkeep : ∀ t, (cfg1.win 1).cut (cfg1.grid.coords t) (dat.after 1 t) = iblk1 V c 1 t) (t : Fin cfg1.N) (d) :
    dat.before 1 t d = (cfg1.win 1).fill (cfg1.grid.coords t) d (iblk1 V c 1 t) :=
  (dat.before_in_eq_fetched 1 rfl (fun _ => rfl)
    (fun t t' h => funext fun a => by
      show Pipeline.Clip.of (cc1_transform_1 (grid1.coords t) a) _ _ = Pipeline.Clip.of (cc1_transform_1 (grid1.coords t') a) _ _
      rw [show cc1_transform_1 (grid1.coords t) = cc1_transform_1 (grid1.coords t') from h])
    (fun t => by rw [hkeep]; unfold Dat.blockOf iblk1; rw [hA]; try rfl) t d).trans
    (by unfold Dat.fetched Dat.blockOf iblk1; rw [hA]; try rfl)

/-- The bias's window likewise, on the leading columns. -/
theorem before1_2_of {c : Dev nD} (dat : Dat τ (Elt F) Unit ℕ (UR sig nD τ) ℕ cfg1 c) (hA : dat.A 2 = V c (Pipeline.arrRef spec1 2))
    (hkeep : ∀ t, (cfg1.win 2).cut (cfg1.grid.coords t) (dat.after 2 t) = iblk1 V c 2 t) (t : Fin cfg1.N) (d) :
    dat.before 2 t d = (cfg1.win 2).fill (cfg1.grid.coords t) d (iblk1 V c 2 t) :=
  (dat.before_in_eq_fetched 2 rfl (fun _ => rfl)
    (fun t t' h => funext fun a => by
      show Pipeline.Clip.of (cc1_transform_2 (grid1.coords t) a) _ _ = Pipeline.Clip.of (cc1_transform_2 (grid1.coords t') a) _ _
      rw [show cc1_transform_2 (grid1.coords t) = cc1_transform_2 (grid1.coords t') from h])
    (fun t => by rw [hkeep]; unfold Dat.blockOf iblk1; rw [hA]; try rfl) t d).trans
    (by unfold Dat.fetched Dat.blockOf iblk1; rw [hA]; try rfl)

/-! ## The body's accesses: each a whole buffer -/

abbrev r1_h : Rect S1024x2048 := Rect.unit (s := S1024x2048) ![0, 0] S1024x2048.size inb_S1024x2048_S1024x2048_0_0
abbrev r1_w : Rect S1280x2048 := Rect.unit (s := S1280x2048) ![0, 0] S1280x2048.size inb_S1280x2048_S1280x2048_0_0
abbrev r1_b : Rect S1x1280 := Rect.unit (s := S1x1280) ![0, 0] S1x1280.size inb_S1x1280_S1x1280_0_0
abbrev r1_o : Rect S1024x1280 := Rect.unit (s := S1024x1280) ![0, 0] S1024x1280.size inb_S1024x1280_S1024x1280_0_0

/-- The result window's staging buffer after the body, from what the three input buffers hold: its one store, of the
    body's arithmetic of the three whole loads. -/
def out1_3 (x0 : Vec F S1024x2048 .bf16) (x1 : Vec F S1280x2048 .bf16) (x2 : Vec F S1x1280 .f32) : Vec F S1024x1280 .f32 :=
  View.canon [⟨r1_o, k1_pay1 (View.ld x0 r1_h) (View.ld x1 r1_w) (View.ld x2 r1_b)⟩]

/-- The one store is of the whole buffer, so it covers it. -/
theorem cover1_3 (p0 : Vec F S1024x1280 .f32) (y : S1024x1280.Idx) :
    ∃ pc ∈ ([⟨r1_o, p0⟩] : List (View.Piece (Elt F) S1024x1280 .f32)), y ∈ pc.1.set :=
  View.cover_of_tiled [⟨r1_o, p0⟩] S1024x1280.size (by rfl) y

/-! ## The body's triple -/

set_option maxHeartbeats 2000000 in
/-- The body on whole staging memrefs — the inputs' at read contents `x0 x1 x2`, the result's at anything — runs to
    the continuation with the inputs' as they were and the result's at `out1_3` of them. -/
theorem sound_kernel1 (c : Dev nD) (E : Set ℕ) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1280 .f32) (harg5 : arg5.IsWhole)
    (x0 : Vec F S1024x2048 .bf16) (x1 : Vec F S1280x2048 .bf16) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__stage2_kernel i arg2 harg2 arg3 harg3 arg4 harg4 arg5 harg5) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The word that fills a cut window's named contents past the array's end: nothing reads it. -/
abbrev z16 : Elt F .bf16 := Scalar.ofBits .bf16 0#16
abbrev z32 : Elt F .f32 := Scalar.ofBits .f32 0#32

/-- The weight's and the bias's blocks filled out to whole buffers. -/
def wblk (c : Dev nD) (t : Fin cfg1.N) : Vec F S1280x2048 .bf16 := (cfg1.win 1).fill (cfg1.grid.coords t) (fun _ => z16) (iblk1 V c 1 t)
def bblk (c : Dev nD) (t : Fin cfg1.N) : Vec F S1x1280 .f32 := (cfg1.win 2).fill (cfg1.grid.coords t) (fun _ => z32) (iblk1 V c 2 t)

/-- The proof data of the second region on core `c`: the arrays as the region finds them; after the body at point `t`
    the activation's buffer at its block, the weight's and the bias's at their blocks filled out, the result's at the
    body's arithmetic of those; the invariant is the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => out1_3 (iblk1 V c 0 t) (wblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) :
    (dat1 V c).after 3 t = out1_3 (iblk1 V c 0 t) (wblk V c t) (bblk V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) :
    (dat1 V c).before 1 t d = (cfg1.win 1).fill (cfg1.grid.coords t) d (iblk1 V c 1 t) :=
  before1_1_of V (dat1 V c) (A_eq1 V c 1) (fun t => by rw [after1_1]; exact (cfg1.win 1).cut_fill _ _ _) t d
theorem before1_2 (c : Dev nD) (t : Fin cfg1.N) (d) :
    (dat1 V c).before 2 t d = (cfg1.win 2).fill (cfg1.grid.coords t) d (iblk1 V c 2 t) :=
  before1_2_of V (dat1 V c) (A_eq1 V c 2) (fun t => by rw [after1_2]; exact (cfg1.win 2).cut_fill _ _ _) t d

/-! ## The body obligation -/

/-- The written-back part of the body's result does not depend on what fills the two cut input buffers past their
    arrays' ends. -/
def FillIndep : Prop :=
  ∀ (t : Fin cfg1.N) (x0 : Vec F S1024x2048 .bf16) (d1 d1' : (cfg1.win 1).block.Idx → Elt F (cfg1.win 1).elt)
    (d2 d2' : (cfg1.win 2).block.Idx → Elt F (cfg1.win 2).elt)
    (b1 : ((cfg1.win 1).xblock (cfg1.grid.coords t)).Idx → Elt F (cfg1.win 1).elt) (b2 : ((cfg1.win 2).xblock (cfg1.grid.coords t)).Idx → Elt F (cfg1.win 2).elt),
    (cfg1.win 3).cut (cfg1.grid.coords t) (out1_3 x0 ((cfg1.win 1).fill (cfg1.grid.coords t) d1 b1) ((cfg1.win 2).fill (cfg1.grid.coords t) d2 b2))
      = (cfg1.win 3).cut (cfg1.grid.coords t) (out1_3 x0 ((cfg1.win 1).fill (cfg1.grid.coords t) d1' b1) ((cfg1.win 2).fill (cfg1.grid.coords t) d2' b2))

/-- What the body is called with at point `t`, the windows one by one (every buffer at what it then holds); -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the uncut window's buffer at what the body leaves, each cut window's at that on its
    written-back part and at anything elsewhere. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ d, owns (c : Thread nD τ) (st1_3 t) fullShare ((cfg1.win 3).fill (cfg1.grid.coords t) d ((cfg1.win 3).cut (cfg1.grid.coords t) ((dat1 V c).after 3 t)))))

/-- The body at any point, where its arithmetic is local: the cut inputs' buffers hold their blocks on the leading part
    and anything past it; what the body then leaves in the result's buffer agrees, on the written-back part, with what
    it would have left had the rest been the filler word. -/
theorem sound_body1 (hind : FillIndep (F := F)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ _ _ _ _ _ _ _ _ _ (iblk1 V c 0 t)
    ((cfg1.win 1).fill (cfg1.grid.coords t) d1 (iblk1 V c 1 t)) ((cfg1.win 2).fill (cfg1.grid.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after1_0]; iexact H0
  isplitl [H1]
  · iexists d1; rw [after1_1]; unfold wblk; rw [(cfg1.win 1).cut_fill]; iexact H1
  isplitl [H2]
  · iexists d2; rw [after1_2]; unfold bblk; rw [(cfg1.win 2).cut_fill]; iexact H2
  · iexists (out1_3 (iblk1 V c 0 t) ((cfg1.win 1).fill (cfg1.grid.coords t) d1 (iblk1 V c 1 t)) ((cfg1.win 2).fill (cfg1.grid.coords t) d2 (iblk1 V c 2 t)))
    rw [after1_3]; unfold wblk bblk
    have h3 := (cfg1.win 3).fill_congr_cut (cfg1.grid.coords t)
      (hind t (iblk1 V c 0 t) d1 (fun _ => z16) d2 (fun _ => z32) (iblk1 V c 1 t) (iblk1 V c 2 t))
    erw [h3]
    iexact H3

/-- The obligation with every buffer's written-back part named, where the body's arithmetic is local (`FillIndep`). -/
theorem body_obligation1 (hind : FillIndep (F := F)) (c : Dev nD) :
    BodyObligationLoose (dat1 (F := F) V c) (defs₀ (F := F)) Variants.none () Set.univ := fun t => by
  rw [bigSep_W1, bigSep_W1]
  exact sound_body1 V hind c t

/-- Which windows a claim that reads nothing of the result hands over and takes back at any contents: the three cut
    ones. -/
abbrev forgets1 : Fin cfg1.W → Bool := fun w => match w with | ⟨0, _⟩ => false | ⟨1, _⟩ => true | ⟨2, _⟩ => true | ⟨3, _⟩ => true

/-- The body at any point with the three cut windows at any contents, at any float instance. -/
theorem sound_body1_forget (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ X, owns (c : Thread nD τ) (st1_1 t) fullShare X) ∗ (∃ X, owns (c : Thread nD τ) (st1_2 t) fullShare X)
        ∗ (∃ X, owns (c : Thread nD τ) (st1_3 t) fullShare X))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ (∃ X, owns (c : Thread nD τ) (st1_1 t) fullShare X) ∗ (∃ X, owns (c : Thread nD τ) (st1_2 t) fullShare X)
            ∗ (∃ X, owns (c : Thread nD τ) (st1_3 t) fullShare X))) := by
  unfold bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%x1, H1⟩, ⟨%x2, H2⟩, ⟨%x3, H3⟩⟩
  rw [before1_0 V c t d0]
  iapply (sound_kernel1 c Set.univ _ _ _ _ _ _ _ _ _ (iblk1 V c 0 t) x1 x2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after1_0]; iexact H0
  isplitl [H1]; · iexists _; iexact H1
  isplitl [H2]; · iexists _; iexact H2
  · iexists _; iexact H3

/-- The obligation with the three cut windows at any contents, at any float instance. -/
theorem body_obligation1_forget (c : Dev nD) :
    BodyObligationLoose (dat1 (F := F) V c) (defs₀ (F := F)) Variants.none () Set.univ forgets1 := fun t => by
  rw [bigSep_W1, bigSep_W1]
  exact sound_body1_forget V c t

end Cert.KernelIdeal.Hand

end
-- ==== Proof.RunI.lean ====
/-
  The run of the whole program at any float instance where the second kernel's arithmetic is local (`FillIndep`):
  @main is a stretch of host operations (the weight's change of format, three reshapes), the first kernel region,
  a second stretch (the second weight's change of format, a reshape) and the second kernel region. The contents of
  the core's buffers at each boundary are a fold from the launch memory: a stretch applies its operations, a
  region leaves its arrays at what its write-backs make of them and every other buffer alone. Every weakly fair
  execution terminates, nothing faulting, and ends with every buffer the program keeps outside a kernel at the last
  boundary's contents: in particular the seven arguments as launched and the result at what the second region's
  write-backs leave.
-/
import proofs.«117770_j56444460204607_2_alg».proof.Proof.Gen.KernelIdeal.Launch
import proofs.«117770_j56444460204607_2_alg».proof.Proof.Gen.KernelIdeal.Skeleton
import proofs.«117770_j56444460204607_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117770_j56444460204607_2_alg».proof.Proof.Gen.KernelIdeal.Regions
import proofs.«117770_j56444460204607_2_alg».proof.Proof.Region0
import proofs.«117770_j56444460204607_2_alg».proof.Proof.Region1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch; -/
abbrev W0 : Dev nD → Valuation τ sig (Elt F) := fun c b => m (c, b)
/-- after the first stretch of host operations (the first region's entry); -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit: its arrays at what the pipeline leaves, every other buffer as entered; -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the second stretch (the second region's entry); -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- at the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer no operation of the first stretch writes is, after it, as launched; -/
theorem W1_of (c : Dev nD) (r : Ref sig .tc) (h : r ∉ hostOps0_W) : W1 m c r = W0 m c r :=
  StableHlo.after_of_writes_sub hostOps0 _ hostOps0_writes h
/-- one no operation of the second stretch writes is, after it, as the first region left it. -/
theorem W3_of (c : Dev nD) (r : Ref sig .tc) (h : r ∉ hostOps1_W) : W3 m c r = W2 m c r :=
  StableHlo.after_of_writes_sub hostOps1 _ hostOps1_writes h

/-! ### The arguments end as launched: no host operation writes one, and a region reads one through an input window
    or not at all -/

/-- The activation is the first region's input window 0: never written. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
/-- Argument 1 is no window's array of either region. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
/-- Argument 2 is no window's array of either region. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- Argument 3 is no window's array of either region. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
/-- Argument 4 is no window's array of either region. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
/-- Argument 5 is no window's array of either region. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
/-- Argument 6 is no window's array of either region. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A stretch of host operations as a segment over the buffers the program keeps outside a kernel, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every such buffer at the last boundary's contents, the register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every buffer at `W1`, left at `W2`. Its arrays are split out
    of the buffers and put back at the exit contents; the generator register goes into the invariant and comes out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region likewise: entered from every buffer at `W3`, left at `W4`. -/
def reg1 (hind : FillIndep (F := F)) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) hind c
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs (hind : FillIndep (F := F)) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m hind) ]

theorem main_run (hind : FillIndep (F := F)) (c : Dev nD) : main (F := F) c = Pipeline.Seg.run (segs m hind) :=
  (main_chain c).trans (by chain_rfl)

set_option backward.isDefEq.respectTransparency.types false in
/-- THE RUN: from any memory with zero counters every weakly fair execution of @main terminates, nothing faulting, and
    every final state holds every buffer the program keeps outside a kernel at the last boundary's contents. -/
theorem run (hind : FillIndep (F := F)) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hind)
    (fun c Q => by rw [main_run m hind c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.Spec.lean ====
/-
  The mathematics both programs compute, written once over plain functions of coordinates (no shapes): a row
  `xr` of the activation goes through the first linear layer against the weight rows `w1 o` and the bias `b1`,
  is normalised over its 2048 features (mean and variance as sums divided by the float 2048, the reciprocal
  square root of the variance plus the float 1e-5), scaled by `g` and shifted by `be`; a normalised row `hr`
  then meets one weight row of the second layer and one bias entry. All arithmetic is on the extended reals.
-/
import Idealize.ShloMosaic.PureOps.Ideal
import Idealize.ShloMosaic.Lib.ValueIdx

noncomputable section

namespace Cert.Spec

open Idealize.ShloMosaic

/-- The float 2048, the divisor of both means. -/
def c2048 : EReal := Ideal.ofBits .f32 0x45000000#32
/-- The float nearest 1e-5, added to the variance. -/
def eps : EReal := Ideal.ofBits .f32 0x3727C5AC#32

variable (w1 : Fin 2048 → Fin 2048 → EReal) (b1 g be : Fin 2048 → EReal)

/-- Feature `o` of the first linear layer on the row `xr`: the dot product with weight row `o`, plus the bias. -/
def linRow (xr : Fin 2048 → EReal) (o : Fin 2048) : EReal := (∑ k : Fin 2048, xr k * w1 o k) + b1 o
/-- The mean of the row's 2048 features. -/
def meanRow (xr : Fin 2048 → EReal) : EReal := Ideal.div (∑ o : Fin 2048, linRow w1 b1 xr o) c2048
/-- Their variance about that mean. -/
def varRow (xr : Fin 2048 → EReal) : EReal :=
  Ideal.div (∑ o : Fin 2048, (linRow w1 b1 xr o - meanRow w1 b1 xr) * (linRow w1 b1 xr o - meanRow w1 b1 xr)) c2048
/-- Feature `o` of the normalised row: centred, times the reciprocal root of variance plus epsilon, scaled and shifted. -/
def hnRow (xr : Fin 2048 → EReal) (o : Fin 2048) : EReal :=
  (linRow w1 b1 xr o - meanRow w1 b1 xr) * Ideal.rsqrt (varRow w1 b1 xr + eps) * g o + be o

/-- One output entry of the second linear layer: a normalised row against one weight row, plus that row's bias. -/
def logit (w3r : Fin 2048 → EReal) (b3v : EReal) (hr : Fin 2048 → EReal) : EReal := (∑ k : Fin 2048, hr k * w3r k) + b3v

end Cert.Spec

end
-- ==== Proof.Final0.lean ====
/-
  The first kernel region's result array as ONE function of the arrays the region finds, at the ideal instance.
  The body's result block at a point is, entry by entry, the specification's normalised row of one row of the
  activation block (the hypothesis Pay0, the body's arithmetic); the activation's block at point t is rows
  512 t … 512 t + 511 of the activation and the other four windows' blocks are their whole arrays, so what point t
  writes back is block t of the normalised activation; the eight blocks cover the array's 4096 rows.
-/
import proofs.«117770_j56444460204607_2_alg».proof.Proof.Gen.KernelIdeal.Launch
import proofs.«117770_j56444460204607_2_alg».proof.Proof.Gen.KernelIdeal.Skeleton
import proofs.«117770_j56444460204607_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117770_j56444460204607_2_alg».proof.Proof.Region0
import proofs.«117770_j56444460204607_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (V : (c : Dev nD) → (b : Ref sig .tc) → Buf (Elt Ideal) ((c : Thread nD τ).loc b))

/-! ## The two bodies' arithmetic, entry by entry (taken as hypotheses here) -/

/-- The first body's result block, entry (p, q): the specification's normalised row of row p of the activation block,
    against the whole weight, bias, scale and shift, at feature q. -/
def Pay0 : Prop := ∀ (X : Vec Ideal S512x2048 .f32) (W : Vec Ideal S2048x2048 .bf16) (B G Be : Vec Ideal S1x2048 .f32) (p : Fin 512) (q : Fin 2048),
  k0_pay1 (F := Ideal) X W B G Be (ix2 p q)
    = Cert.Spec.hnRow (fun o k => W (ix2 o k)) (fun o => B (ix2 0 o)) (fun o => G (ix2 0 o)) (fun o => Be (ix2 0 o)) (fun k => X (ix2 p k)) q

/-- The offsets of a whole-buffer access, however the zeros are spelt. -/
theorem hz2 : (![0, 0] : Fin 2 → Nat) = fun _ => 0 := funext fun a => by fin_cases a <;> rfl

/-- The normalised row depends on its six arguments only. -/
theorem hnRow_congr {w w' : Fin 2048 → Fin 2048 → EReal} {b b' g g' be be' x x' : Fin 2048 → EReal} {o o' : Fin 2048}
    (hw : w = w') (hb : b = b') (hg : g = g') (hbe : be = be') (hx : x = x') (ho : o = o') :
    Cert.Spec.hnRow w b g be x o = Cert.Spec.hnRow w' b' g' be' x' o' := by
  subst hw hb hg hbe hx ho; rfl

/-! ## The first region: the normalised activation, whole -/

/-- What the first region leaves in its result array: at (n, o) the specification's normalised row of row n of the
    activation, at feature o. -/
abbrev G0 (c : Dev nD) : S4096x2048.Idx → EReal := fun i =>
  Cert.Spec.hnRow (fun o k => (V c main_v0 : S2048x2048.Idx → EReal) (ix2 o k)) (fun o => (V c main_v1 : S1x2048.Idx → EReal) (ix2 0 o))
    (fun o => (V c main_v2 : S1x2048.Idx → EReal) (ix2 0 o)) (fun o => (V c main_v3 : S1x2048.Idx → EReal) (ix2 0 o))
    (fun k => (V c main_arg0 : S4096x2048.Idx → EReal) (ix2 (i 0) k)) (i 1)

/-- The printed index maps over the grid: the activation's and the result's blocks are the point's 512 rows, the four
    other windows' blocks their whole arrays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The activation's block at point t is rows 512 t … 512 t + 511 of the array. -/
theorem iblk0_0_apply (c : Dev nD) (t : Fin cfg0.N) (p : Fin 512) (k : Fin 2048) (i : S4096x2048.Idx)
    (hi0 : (i 0).val = t.val * 512 + p.val) (hi1 : (i 1).val = k.val) :
    (iblk0 V c 0 t : S512x2048.Idx → EReal) (ix2 p k) = (V c main_arg0 : S4096x2048.Idx → EReal) i := by
  obtain ⟨e0, e1, -⟩ := idx_facts0 t
  show (V c main_arg0 : S4096x2048.Idx → EReal) (((cfg0.win 0).blk t).view.emb (ix2 p k)) = _
  refine congrArg (V c main_arg0 : S4096x2048.Idx → EReal) (funext fun a => Fin.ext ?_)
  match a with
  | ⟨0, _⟩ => show win0_0.index t (0 : Fin 2) * 512 + 1 * p.val = (i 0).val; omega
  | ⟨1, _⟩ => show win0_0.index t (1 : Fin 2) * 2048 + 1 * k.val = (i 1).val; omega

/-- The weight's block at every point is the whole weight. -/
theorem iblk0_1_apply (c : Dev nD) (t : Fin cfg0.N) (o k : Fin 2048) :
    (iblk0 V c 1 t : S2048x2048.Idx → EReal) (ix2 o k) = (V c main_v0 : S2048x2048.Idx → EReal) (ix2 o k) := by
  obtain ⟨-, -, e0, e1, -⟩ := idx_facts0 t
  show (V c main_v0 : S2048x2048.Idx → EReal) (((cfg0.win 1).blk t).view.emb (ix2 o k)) = _
  refine congrArg (V c main_v0 : S2048x2048.Idx → EReal) (funext fun a => Fin.ext ?_)
  match a with
  | ⟨0, _⟩ => show win0_1.index t (0 : Fin 2) * 2048 + 1 * o.val = o.val; omega
  | ⟨1, _⟩ => show win0_1.index t (1 : Fin 2) * 2048 + 1 * k.val = k.val; omega

/-- The bias's, the scale's and the shift's blocks at every point are the whole vectors. -/
theorem iblk0_2_apply (c : Dev nD) (t : Fin cfg0.N) (o : Fin 2048) :
    (iblk0 V c 2 t : S1x2048.Idx → EReal) (ix2 0 o) = (V c main_v1 : S1x2048.Idx → EReal) (ix2 0 o) := by
  obtain ⟨-, -, -, -, e0, e1, -⟩ := idx_facts0 t
  show (V c main_v1 : S1x2048.Idx → EReal) (((cfg0.win 2).blk t).view.emb (ix2 0 o)) = _
  refine congrArg (V c main_v1 : S1x2048.Idx → EReal) (funext fun a => Fin.ext ?_)
  match a with
  | ⟨0, _⟩ => show win0_2.index t (0 : Fin 2) * 1 + 1 * 0 = 0; omega
  | ⟨1, _⟩ => show win0_2.index t (1 : Fin 2) * 2048 + 1 * o.val = o.val; omega
theorem iblk0_3_apply (c : Dev nD) (t : Fin cfg0.N) (o : Fin 2048) :
    (iblk0 V c 3 t : S1x2048.Idx → EReal) (ix2 0 o) = (V c main_v2 : S1x2048.Idx → EReal) (ix2 0 o) := by
  obtain ⟨-, -, -, -, -, -, e0, e1, -⟩ := idx_facts0 t
  show (V c main_v2 : S1x2048.Idx → EReal) (((cfg0.win 3).blk t).view.emb (ix2 0 o)) = _
  refine congrArg (V c main_v2 : S1x2048.Idx → EReal) (funext fun a => Fin.ext ?_)
  match a with
  | ⟨0, _⟩ => show win0_3.index t (0 : Fin 2) * 1 + 1 * 0 = 0; omega
  | ⟨1, _⟩ => show win0_3.index t (1 : Fin 2) * 2048 + 1 * o.val = o.val; omega
theorem iblk0_4_apply (c : Dev nD) (t : Fin cfg0.N) (o : Fin 2048) :
    (iblk0 V c 4 t : S1x2048.Idx → EReal) (ix2 0 o) = (V c main_v3 : S1x2048.Idx → EReal) (ix2 0 o) := by
  obtain ⟨-, -, -, -, -, -, -, -, e0, e1, -⟩ := idx_facts0 t
  show (V c main_v3 : S1x2048.Idx → EReal) (((cfg0.win 4).blk t).view.emb (ix2 0 o)) = _
  refine congrArg (V c main_v3 : S1x2048.Idx → EReal) (funext fun a => Fin.ext ?_)
  match a with
  | ⟨0, _⟩ => show win0_4.index t (0 : Fin 2) * 1 + 1 * 0 = 0; omega
  | ⟨1, _⟩ => show win0_4.index t (1 : Fin 2) * 2048 + 1 * o.val = o.val; omega

/-- WHAT POINT t WRITES BACK is block t of the normalised activation. -/
theorem flushed0_eq (h0 : Pay0) (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S512x2048) hz2, View.ld_unit_zero (S := S2048x2048) hz2, View.ld_unit_zero (S := S1x2048) hz2]
  obtain ⟨-, -, -, -, -, -, -, -, -, -, e50, e51⟩ := idx_facts0 t
  funext j
  obtain ⟨p, q, rfl⟩ : ∃ (p : Fin 512) (q : Fin 2048), j = ix2 p q := ⟨j 0, j 1, @eq_ix2 512 2048 j⟩
  refine (h0 _ _ _ _ _ p q).trans ?_
  show _ = G0 V c (((cfg0.win 5).blk t).view.emb (ix2 p q))
  have hr : ((((cfg0.win 5).blk t).view.emb (ix2 p q)) 0).val = t.val * 512 + p.val := by
    show win0_5.index t (0 : Fin 2) * 512 + 1 * p.val = _; omega
  have hq : q = (((cfg0.win 5).blk t).view.emb (ix2 p q)) 1 :=
    Fin.ext (by show q.val = win0_5.index t (1 : Fin 2) * 2048 + 1 * q.val; omega)
  exact hnRow_congr (funext fun o => funext fun k => iblk0_1_apply V c t o k) (funext fun o => iblk0_2_apply V c t o)
    (funext fun o => iblk0_3_apply V c t o) (funext fun o => iblk0_4_apply V c t o)
    (funext fun k => iblk0_0_apply V c t p k _ hr rfl) hq

/-- Every index of the result array is in the block of the point its row falls in. -/
theorem cover0 (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  have hlt : (i 0).val / 512 < grid0.N := by rw [N_0]; omega
  obtain ⟨t, ht⟩ : ∃ t : Fin cfg0.N, t.val = (i 0).val / 512 := ⟨⟨(i 0).val / 512, hlt⟩, rfl⟩
  obtain ⟨-, -, -, -, -, -, -, -, -, -, e50, e51⟩ := idx_facts0 t
  refine ⟨t, flush0_5 t, ?_⟩
  show i ∈ ((View.whole main_v4).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 2048 ≤ (i 1).val ∧ (i 1).val < win0_5.index t (1 : Fin 2) * 2048 + 2048
    omega

/-- THE NORMALISED ACTIVATION after the first region: the specification's, whole. -/
theorem final0 (c : Dev nD) (h0 : Pay0) : (dat0 (F := Ideal) V c).arrAt 5 cfg0.N
    = fun i => Cert.Spec.hnRow (fun o k => V c main_v0 (ix2 o k)) (fun o => V c main_v1 (ix2 0 o)) (fun o => V c main_v2 (ix2 0 o))
        (fun o => V c main_v3 (ix2 0 o)) (fun k => V c main_arg0 (ix2 (i 0) k)) (i 1) :=
  (dat0 (F := Ideal) V c).arrAt_eq_of_cover 5 (G0 V c) (fun t _ => flushed0_eq V h0 c t) cover0

end Cert.KernelIdeal.Hand

end
-- ==== Proof.Final.lean ====
/-
  The second kernel region's result array as ONE function of the arrays the region finds, at the ideal instance,
  and the locality of its body's arithmetic. The body's result block is, entry (p, q), row p of the activation
  block against row q of the weight block plus entry q of the bias block (the hypothesis Pay1, the body's
  arithmetic). The 30000 columns are 23 blocks of 1280 and one of 560: at the last column block the weight's, the
  bias's and the result's transfers are cut alike, so an entry (p, q) that is written back has q among the rows
  (columns) the fetches moved, where a filled buffer holds its block: the written-back part reads nothing of what
  fills the buffers past the arrays' ends. Reading each block where the result's rectangle says, what point t writes
  back is block t of the whole-array function, and the 4 x 24 blocks, cut at the array's end, cover the array.
-/
import proofs.«117770_j56444460204607_2_alg».proof.Proof.Gen.KernelIdeal.Launch
import proofs.«117770_j56444460204607_2_alg».proof.Proof.Gen.KernelIdeal.Skeleton
import proofs.«117770_j56444460204607_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117770_j56444460204607_2_alg».proof.Proof.Region1
import proofs.«117770_j56444460204607_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (V : (c : Dev nD) → (b : Ref sig .tc) → Buf (Elt Ideal) ((c : Thread nD τ).loc b))

/-! ## The second body's arithmetic, entry by entry (taken as a hypothesis here) -/

/-- The second body's result block, entry (p, q): row p of the activation block against row q of the weight block,
    plus entry q of the bias block. -/
def Pay1 : Prop := ∀ (H : Vec Ideal S1024x2048 .bf16) (W3 : Vec Ideal S1280x2048 .bf16) (B3 : Vec Ideal S1x1280 .f32) (p : Fin 1024) (q : Fin 1280),
  k1_pay1 (F := Ideal) H W3 B3 (ix2 p q)
    = Cert.Spec.logit (fun k => W3 (ix2 q k)) (B3 (ix2 0 q)) (fun k => H (ix2 p k))

/-- The offsets of a whole-buffer access, however the zeros are spelt. -/
theorem hz2' : (![0, 0] : Fin 2 → Nat) = fun _ => 0 := funext fun a => by fin_cases a <;> rfl

/-- One output entry depends on its three arguments only. -/
theorem logit_congr {w w' : Fin 2048 → EReal} {b b' : EReal} {h h' : Fin 2048 → EReal}
    (hw : w = w') (hb : b = b') (hh : h = h') : Cert.Spec.logit w b h = Cert.Spec.logit w' b' h' := by
  subst hw hb hh; rfl

/-- A cut window's buffer filled from a block reads the block wherever the transfer moves the entry, whatever filled
    the rest. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-! ## The second region -/

/-- The printed index maps and cuts over the grid: the point's row block is t / 24 and its column block t % 24; the
    activation's block is the row block's 1024 rows, the weight's the column block's rows, the bias's the column
    block's columns; rows are never cut; the last column block keeps 560 of its 1280, alike in the three windows. -/
theorem idx_facts1 : ∀ t : Fin cfg1.N,
    win1_0.index t (0 : Fin 2) = t.val / 24 ∧ win1_0.index t (1 : Fin 2) = 0
    ∧ win1_1.index t (0 : Fin 2) = t.val % 24 ∧ win1_1.index t (1 : Fin 2) = 0
    ∧ win1_2.index t (0 : Fin 2) = 0 ∧ win1_2.index t (1 : Fin 2) = t.val % 24
    ∧ win1_3.index t (0 : Fin 2) = t.val / 24 ∧ win1_3.index t (1 : Fin 2) = t.val % 24
    ∧ win1_3.xsize (grid1.coords t) (0 : Fin 2) = 1024
    ∧ win1_3.xsize (grid1.coords t) (1 : Fin 2) = (if t.val % 24 = 23 then 560 else 1280)
    ∧ win1_1.xsize (grid1.coords t) (0 : Fin 2) = win1_3.xsize (grid1.coords t) (1 : Fin 2)
    ∧ win1_1.xsize (grid1.coords t) (1 : Fin 2) = 2048
    ∧ win1_2.xsize (grid1.coords t) (0 : Fin 2) = 1
    ∧ win1_2.xsize (grid1.coords t) (1 : Fin 2) = win1_3.xsize (grid1.coords t) (1 : Fin 2) :=
  (by decide +kernel : ∀ t : Fin grid1.N, _)

/-- Row q of the weight's buffer, for a column q the result's write-back moves, is a moved row. -/
theorem moved1 (t : Fin cfg1.N) (q : Fin 1280) (hq : q.val < (cfg1.win 3).xsize (cfg1.grid.coords t) (1 : Fin 2)) (k : Fin 2048) :
    ∀ a, ((ix2 q k : (cfg1.win 1).block.Idx) a).val < (cfg1.win 1).xsize (cfg1.grid.coords t) a := by
  obtain ⟨-, -, -, -, -, -, -, -, -, -, x10, x11, -⟩ := idx_facts1 t
  intro a
  match a with
  | ⟨0, _⟩ => show q.val < win1_1.xsize (grid1.coords t) (0 : Fin 2); rw [x10]; exact hq
  | ⟨1, _⟩ => show k.val < win1_1.xsize (grid1.coords t) (1 : Fin 2); rw [x11]; exact k.isLt

/-- Entry q of the bias's buffer likewise. -/
theorem moved2 (t : Fin cfg1.N) (q : Fin 1280) (hq : q.val < (cfg1.win 3).xsize (cfg1.grid.coords t) (1 : Fin 2)) :
    ∀ a, ((ix2 (0 : Fin 1) q : (cfg1.win 2).block.Idx) a).val < (cfg1.win 2).xsize (cfg1.grid.coords t) a := by
  obtain ⟨-, -, -, -, -, -, -, -, -, -, -, -, x20, x21⟩ := idx_facts1 t
  intro a
  match a with
  | ⟨0, _⟩ => show (0 : Nat) < win1_2.xsize (grid1.coords t) (0 : Fin 2); rw [x20]; exact Nat.one_pos
  | ⟨1, _⟩ => show q.val < win1_2.xsize (grid1.coords t) (1 : Fin 2); rw [x21]; exact hq

/-- The body's result on the part written back, from the three buffers: entry (p, q) of the moved part is row p of the
    activation's buffer against the weight BLOCK's row q, plus the bias BLOCK's entry q — nothing of what fills the
    two cut buffers past their blocks. -/
theorem cut_out1_3 (h1 : Pay1) (t : Fin cfg1.N) (x0 : Vec Ideal S1024x2048 .bf16)
    (d1 : (cfg1.win 1).block.Idx → Elt Ideal (cfg1.win 1).elt) (d2 : (cfg1.win 2).block.Idx → Elt Ideal (cfg1.win 2).elt)
    (b1 : ((cfg1.win 1).xblock (cfg1.grid.coords t)).Idx → Elt Ideal (cfg1.win 1).elt)
    (b2 : ((cfg1.win 2).xblock (cfg1.grid.coords t)).Idx → Elt Ideal (cfg1.win 2).elt)
    (j : ((cfg1.win 3).xblock (cfg1.grid.coords t)).Idx) :
    (cfg1.win 3).cut (cfg1.grid.coords t) (out1_3 x0 ((cfg1.win 1).fill (cfg1.grid.coords t) d1 b1) ((cfg1.win 2).fill (cfg1.grid.coords t) d2 b2)) j
      = Cert.Spec.logit
          (fun k => b1 fun a => ⟨((ix2 (⟨(j 1).val, Nat.lt_of_lt_of_le (j 1).isLt ((cfg1.win 3).xsize_le _ _)⟩ : Fin 1280) k : (cfg1.win 1).block.Idx) a).val,
            moved1 t ⟨(j 1).val, Nat.lt_of_lt_of_le (j 1).isLt ((cfg1.win 3).xsize_le _ _)⟩ (j 1).isLt k a⟩)
          (b2 fun a => ⟨((ix2 (0 : Fin 1) (⟨(j 1).val, Nat.lt_of_lt_of_le (j 1).isLt ((cfg1.win 3).xsize_le _ _)⟩ : Fin 1280) : (cfg1.win 2).block.Idx) a).val,
            moved2 t ⟨(j 1).val, Nat.lt_of_lt_of_le (j 1).isLt ((cfg1.win 3).xsize_le _ _)⟩ (j 1).isLt a⟩)
          (fun k => x0 (ix2 (⟨(j 0).val, Nat.lt_of_lt_of_le (j 0).isLt ((cfg1.win 3).xsize_le _ _)⟩ : Fin 1024) k)) := by
  unfold out1_3
  rw [View.canon_unit_zero hz2']
  simp only [View.ld_unit_zero (S := S1024x2048) hz2', View.ld_unit_zero (S := S1280x2048) hz2', View.ld_unit_zero (S := S1x1280) hz2']
  show k1_pay1 (F := Ideal) x0 _ _ ((cfg1.win 3).xinj (cfg1.grid.coords t) j) = _
  rw [@eq_ix2 1024 1280 ((cfg1.win 3).xinj (cfg1.grid.coords t) j)]
  refine (h1 _ _ _ _ _).trans ?_
  refine logit_congr (funext fun k => ?_) ?_ rfl
  · exact fill_apply_of_lt (cfg1.win 1) (cfg1.grid.coords t) d1 b1 _ (moved1 t _ (j 1).isLt k)
  · exact fill_apply_of_lt (cfg1.win 2) (cfg1.grid.coords t) d2 b2 _ (moved2 t _ (j 1).isLt)

/-- THE WRITTEN-BACK PART of the second body's result does not see what fills the cut inputs past the arrays' ends. -/
theorem fillIndep (h1 : Pay1) : FillIndep (F := Ideal) := by
  intro t x0 d1 d1' d2 d2' b1 b2
  funext j
  rw [cut_out1_3 h1 t x0 d1 d2 b1 b2 j, cut_out1_3 h1 t x0 d1' d2' b1 b2 j]

/-! ## The result array, whole -/

/-- What the second region leaves in its result array: at (n, v) row n of the normalised activation against row v of
    the second weight, plus entry v of the second bias. -/
abbrev G1 (c : Dev nD) : S4096x30000.Idx → EReal := fun i =>
  Cert.Spec.logit (fun k => (V c main_v5 : S30000x2048.Idx → EReal) (ix2 (i 1) k)) ((V c main_v6 : S1x30000.Idx → EReal) (ix2 0 (i 1)))
    (fun k => (V c main_v4 : S4096x2048.Idx → EReal) (ix2 (i 0) k))

/-- WHAT POINT t WRITES BACK is block t — its part inside the array — of that function. -/
theorem flushed1_eq (h1 : Pay1) (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold wblk bblk
  obtain ⟨i00, i01, i10, i11, i20, i21, i30, i31, -⟩ := idx_facts1 t
  funext j
  rw [cut_out1_3 h1 t (iblk1 V c 0 t) (fun _ => z16) (fun _ => z32) (iblk1 V c 1 t) (iblk1 V c 2 t) j]
  show _ = G1 V c (((cfg1.win 3).blk t).view.emb j)
  refine logit_congr (funext fun k => ?_) ?_ (funext fun k => ?_)
  · show (V c main_v5 : S30000x2048.Idx → EReal) (((cfg1.win 1).blk t).view.emb _) = _
    refine congrArg (V c main_v5 : S30000x2048.Idx → EReal) (funext fun a => Fin.ext ?_)
    match a with
    | ⟨0, _⟩ =>
      show win1_1.index t (0 : Fin 2) * 1280 + 1 * (j 1).val = win1_3.index t (1 : Fin 2) * 1280 + 1 * (j 1).val
      omega
    | ⟨1, _⟩ => show win1_1.index t (1 : Fin 2) * 2048 + 1 * k.val = k.val; omega
  · show (V c main_v6 : S1x30000.Idx → EReal) (((cfg1.win 2).blk t).view.emb _) = _
    refine congrArg (V c main_v6 : S1x30000.Idx → EReal) (funext fun a => Fin.ext ?_)
    match a with
    | ⟨0, _⟩ => show win1_2.index t (0 : Fin 2) * 1 + 1 * 0 = 0; omega
    | ⟨1, _⟩ =>
      show win1_2.index t (1 : Fin 2) * 1280 + 1 * (j 1).val = win1_3.index t (1 : Fin 2) * 1280 + 1 * (j 1).val
      omega
  · show (V c main_v4 : S4096x2048.Idx → EReal) (((cfg1.win 0).blk t).view.emb _) = _
    refine congrArg (V c main_v4 : S4096x2048.Idx → EReal) (funext fun a => Fin.ext ?_)
    match a with
    | ⟨0, _⟩ =>
      show win1_0.index t (0 : Fin 2) * 1024 + 1 * (j 0).val = win1_3.index t (0 : Fin 2) * 1024 + 1 * (j 0).val
      omega
    | ⟨1, _⟩ => show win1_0.index t (1 : Fin 2) * 2048 + 1 * k.val = k.val; omega

/-- Every index of the result array is in the block — cut at the array's end — of the point its row block and column
    block name. -/
theorem cover1 (i : S4096x30000.Idx) : ∃ t : Fin cfg1.N, (cfg1.win 3).flush t = true ∧ i ∈ ((cfg1.win 3).blk t).view.set := by
  have hi0 : (i 0).val < 4096 := (i 0).isLt
  have hi1 : (i 1).val < 30000 := (i 1).isLt
  have hlt : (i 0).val / 1024 * 24 + (i 1).val / 1280 < grid1.N := by rw [N_1]; omega
  obtain ⟨t, ht⟩ : ∃ t : Fin cfg1.N, t.val = (i 0).val / 1024 * 24 + (i 1).val / 1280 := ⟨⟨_, hlt⟩, rfl⟩
  obtain ⟨-, -, -, -, -, -, i30, i31, x30, x31, -⟩ := idx_facts1 t
  refine ⟨t, flush1_3 t, ?_⟩
  show i ∈ ((View.whole main_v7).slice (win1_3.rect t)).set
  rw [View.set_slice_whole, Rect.mem_set_unit]
  intro a
  match a with
  | ⟨0, _⟩ =>
    show win1_3.index t (0 : Fin 2) * 1024 ≤ (i 0).val
      ∧ (i 0).val < win1_3.index t (0 : Fin 2) * 1024 + win1_3.xsize (grid1.coords t) (0 : Fin 2)
    rw [x30]; omega
  | ⟨1, _⟩ =>
    show win1_3.index t (1 : Fin 2) * 1280 ≤ (i 1).val
      ∧ (i 1).val < win1_3.index t (1 : Fin 2) * 1280 + win1_3.xsize (grid1.coords t) (1 : Fin 2)
    rw [x31]
    split <;> omega

/-- THE RESULT ARRAY after the second region: every entry the specification's output entry of the arrays the region
    finds. -/
theorem final1 (c : Dev nD) (h1 : Pay1) : (dat1 (F := Ideal) V c).arrAt 3 cfg1.N
    = fun i => Cert.Spec.logit (fun k => V c main_v5 (ix2 (i 1) k)) (V c main_v6 (ix2 0 (i 1))) (fun k => V c main_v4 (ix2 (i 0) k)) :=
  (dat1 (F := Ideal) V c).arrAt_eq_of_cover 3 (G1 V c) (fun t _ => flushed1_eq V h1 c t) cover1

end Cert.KernelIdeal.Hand

end
-- ==== Proof.Bridge.lean ====
/-
  What the buffers the two kernel regions read hold, at the ideal float instance, in terms of the launch memory:
  the first stretch of host operations changes the first weight's format (the identity on extended reals) and
  views the three feature vectors as one-row matrices; the second stretch does the same for the second weight
  and its bias; the activation is as launched, and the normalised activation is what the first region leaves.
-/
import proofs.«117770_j56444460204607_2_alg».proof.Proof.RunI
import Idealize.ShloMosaic.Lib.StableHlo.Run
import Idealize.ShloMosaic.Lib.ValueIdx
import Idealize.ShloMosaic.Lib.ValueLayout
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.StableHlo (after_cons after_nil)
open Idealize.ShloMosaic.ValueIdx

variable (m : (ℓ : Loc nD τ sig) → Buf (Elt Ideal) ℓ) (c : Dev nD)

/-! ## At the first region's entry -/

/-- The activation is written by no host operation. -/
theorem V1_arg0 : V1 m c main_arg0 = m ((c : Thread nD τ).loc main_arg0) :=
  W1_of m c main_arg0 (by decide)

/-- The first weight in the narrower format: on extended reals the change of format is the identity. -/
theorem V1_v0 (o k : Fin 2048) :
    (V1 m c main_v0 : S2048x2048.Idx → EReal) (ix2 o k) = (m ((c : Thread nD τ).loc main_arg1) : S2048x2048.Idx → EReal) (ix2 o k) := by
  have e : (V1 m c main_v0 : S2048x2048.Idx → EReal)
      = (truncf (F := Ideal) .bf16 (m ((c : Thread nD τ).loc main_arg1) : FVec Ideal S2048x2048 .f32) bitsLt_bf16_f32 : FVec Ideal S2048x2048 .bf16) := by
    dsimp only [V1, W1, hostOps0]; after_results
  exact congrFun e (ix2 o k)

/-- The first bias as a one-row matrix. -/
theorem V1_v1 (o : Fin 2048) :
    (V1 m c main_v1 : S1x2048.Idx → EReal) (ix2 0 o) = (m ((c : Thread nD τ).loc main_arg2) : S2048.Idx → EReal) (ix1 o) := by
  have e : (V1 m c main_v1 : S1x2048.Idx → EReal)
      = shapeCast S1x2048 (m ((c : Thread nD τ).loc main_arg2) : S2048.Idx → EReal) shapeCasts_S2048_S1x2048 := by
    dsimp only [V1, W1, hostOps0]; after_results; rfl
  exact (congrFun e (ix2 0 o)).trans (shapeCast_a_1a_apply _ _ 0 o)

/-- The scale as a one-row matrix. -/
theorem V1_v2 (o : Fin 2048) :
    (V1 m c main_v2 : S1x2048.Idx → EReal) (ix2 0 o) = (m ((c : Thread nD τ).loc main_arg3) : S2048.Idx → EReal) (ix1 o) := by
  have e : (V1 m c main_v2 : S1x2048.Idx → EReal)
      = shapeCast S1x2048 (m ((c : Thread nD τ).loc main_arg3) : S2048.Idx → EReal) shapeCasts_S2048_S1x2048 := by
    dsimp only [V1, W1, hostOps0]; after_results; rfl
  exact (congrFun e (ix2 0 o)).trans (shapeCast_a_1a_apply _ _ 0 o)

/-- The shift as a one-row matrix. -/
theorem V1_v3 (o : Fin 2048) :
    (V1 m c main_v3 : S1x2048.Idx → EReal) (ix2 0 o) = (m ((c : Thread nD τ).loc main_arg4) : S2048.Idx → EReal) (ix1 o) := by
  have e : (V1 m c main_v3 : S1x2048.Idx → EReal)
      = shapeCast S1x2048 (m ((c : Thread nD τ).loc main_arg4) : S2048.Idx → EReal) shapeCasts_S2048_S1x2048 := by
    dsimp only [V1, W1, hostOps0]; after_results; rfl
  exact (congrFun e (ix2 0 o)).trans (shapeCast_a_1a_apply _ _ 0 o)

/-! ## At the second region's entry -/

/-- The normalised activation is the first region's output array, which the second stretch does not write. -/
theorem V3_v4 : V3 m c main_v4 = (dat0 (V1 m) c).arrAt 5 cfg0.N :=
  (W3_of m c main_v4 (by decide)).trans (W2_arr m c 5)

/-- The second weight is written by neither the first stretch nor the first region. -/
theorem W2_arg5 : W2 m c (Proc.devRef .tc main_arg5) = m ((c : Thread nD τ).loc main_arg5) :=
  (W2_of_ne m c main_arg5 (by decide)).trans (W1_of m c main_arg5 (by decide))

/-- Nor is the second bias. -/
theorem W2_arg6 : W2 m c (Proc.devRef .tc main_arg6) = m ((c : Thread nD τ).loc main_arg6) :=
  (W2_of_ne m c main_arg6 (by decide)).trans (W1_of m c main_arg6 (by decide))

/-- The second weight in the narrower format. -/
theorem V3_v5 (v : Fin 30000) (k : Fin 2048) :
    (V3 m c main_v5 : S30000x2048.Idx → EReal) (ix2 v k) = (m ((c : Thread nD τ).loc main_arg5) : S30000x2048.Idx → EReal) (ix2 v k) := by
  have e : (V3 m c main_v5 : S30000x2048.Idx → EReal)
      = (truncf (F := Ideal) .bf16 (W2 m c (Proc.devRef .tc main_arg5) : FVec Ideal S30000x2048 .f32) bitsLt_bf16_f32 : FVec Ideal S30000x2048 .bf16) := by
    dsimp only [V3, W3, hostOps1]; after_results
  rw [e, W2_arg5]
  rfl

/-- The second bias as a one-row matrix. -/
theorem V3_v6 (v : Fin 30000) :
    (V3 m c main_v6 : S1x30000.Idx → EReal) (ix2 0 v) = (m ((c : Thread nD τ).loc main_arg6) : S30000.Idx → EReal) (ix1 v) := by
  have e : (V3 m c main_v6 : S1x30000.Idx → EReal)
      = shapeCast S1x30000 (W2 m c (Proc.devRef .tc main_arg6) : S30000.Idx → EReal) shapeCasts_S30000_S1x30000 := by
    dsimp only [V3, W3, hostOps1]; after_results; rfl
  rw [e, W2_arg6]
  exact shapeCast_a_1a_apply _ _ 0 v

end Cert.KernelIdeal.Hand

end
-- ==== Proof.RefSide.lean ====
/-
  The reference program read as mathematics, at the ideal instance (every float an extended real).

  The reference applies a linear layer to each row of the activation, normalises the row over its 2048 features
  (mean, variance, reciprocal root of variance plus epsilon, scale and shift), and applies a second linear layer.
  Each stage of that program, read at one index, is the matching definition of the specification:
  the first layer is a dot product plus a bias entry, the mean and the variance are sums over the row divided by
  the float 2048, and so on. The only work is bookkeeping: the index functions through which a stage reads its
  operands (a broadcast drops or pins a coordinate, a contraction pairs a row with a row) are identified with
  indices built from coordinates, after which both sides are the same expression.
-/
import proofs.«117770_j56444460204607_2_alg».proof.Proof.Gen.ReferenceIdeal.Read
import proofs.«117770_j56444460204607_2_alg».proof.Proof.Spec

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index functions, by coordinates

Row n of the activation, feature o of the hidden layer, contraction position k, output column c; z is the
one coordinate of an axis of size one. -/

section Indices
variable (n : Fin 4096) (o k : Fin 2048) (z : Fin 1) (c : Fin 30000)

/-- The first layer's contraction reads the activation at row n, position k … -/
theorem lidx0 : lidx_main_v0 (ix2 n o) k = ix2 n k :=
  funext fun a => by match a with | ⟨0, _⟩ => rfl | ⟨1, _⟩ => rfl
/-- … and the weight at row o, position k. -/
theorem ridx0 : ridx_main_v0 (ix2 n o) k = ix2 o k :=
  funext fun a => by match a with | ⟨0, _⟩ => rfl | ⟨1, _⟩ => rfl
/-- A vector broadcast along the rows is read at the feature. -/
theorem idx1_2 : idx_main_v1 (idx_main_v2 (ix2 n o)) = ix1 o :=
  funext fun a => by match a with | ⟨0, _⟩ => rfl
theorem idx22_23 : idx_main_v22 (idx_main_v23 (ix2 n o)) = ix1 o :=
  funext fun a => by match a with | ⟨0, _⟩ => rfl
theorem idx25_26 : idx_main_v25 (idx_main_v26 (ix2 n o)) = ix1 o :=
  funext fun a => by match a with | ⟨0, _⟩ => rfl
/-- A sum over the features of row n reads the row at each feature. -/
theorem idx4_5 : idx_main_v4 (idx_main_v5 (ix2 n z)) k = ix2 n k :=
  funext fun a => by match a with | ⟨0, _⟩ => rfl | ⟨1, _⟩ => rfl
theorem idx11_12 : idx_main_v11 (idx_main_v12 (ix2 n z)) k = ix2 n k :=
  funext fun a => by match a with | ⟨0, _⟩ => rfl | ⟨1, _⟩ => rfl
/-- A per-row scalar broadcast along the features is read at the row. -/
theorem idx8 : idx_main_v8 (ix2 n o) = ix2 n (0 : Fin 1) :=
  funext fun a => by match a with | ⟨0, _⟩ => rfl | ⟨1, _⟩ => rfl
theorem idx15 : idx_main_v15 (ix2 n o) = ix2 n (0 : Fin 1) :=
  funext fun a => by match a with | ⟨0, _⟩ => rfl | ⟨1, _⟩ => rfl
theorem idx20 : idx_main_v20 (ix2 n o) = ix2 n (0 : Fin 1) :=
  funext fun a => by match a with | ⟨0, _⟩ => rfl | ⟨1, _⟩ => rfl
/-- The second layer's contraction reads the normalised activation at row n, position k … -/
theorem lidx28 : lidx_main_v28 (ix2 n c) k = ix2 n k :=
  funext fun a => by match a with | ⟨0, _⟩ => rfl | ⟨1, _⟩ => rfl
/-- … and the weight at row c, position k. -/
theorem ridx28 : ridx_main_v28 (ix2 n c) k = ix2 c k :=
  funext fun a => by match a with | ⟨0, _⟩ => rfl | ⟨1, _⟩ => rfl
/-- The second bias, broadcast along the rows, is read at the column. -/
theorem idx29_30 : idx_main_v29 (idx_main_v30 (ix2 n c)) = ix1 c :=
  funext fun a => by match a with | ⟨0, _⟩ => rfl

end Indices

/-! ## The stages of the normalisation -/

section Stages
variable (x0 : (⟨S4096x2048, .f32⟩ : BufTy).Contents (Elt Ideal)) (x1 : (⟨S2048x2048, .f32⟩ : BufTy).Contents (Elt Ideal))
  (x2 x3 x4 : (⟨S2048, .f32⟩ : BufTy).Contents (Elt Ideal))
  (n : Fin 4096) (o : Fin 2048) (z : Fin 1)

/-- The first linear layer at row n, feature o. -/
theorem lin_at :
    val_main_v3 (F := Ideal) x0 x1 x2 (ix2 n o)
      = Cert.Spec.linRow (fun o k => x1 (ix2 o k)) (fun o => x2 (ix1 o)) (fun k => x0 (ix2 n k)) o := by
  rw [val_main_v3_apply, val_main_v0_apply, val_main_v2_apply, val_main_v1_apply, idx1_2]
  simp only [lidx0, ridx0]
  rfl

/-- The mean of row n. -/
theorem mean_at :
    val_main_v7 (F := Ideal) x0 x1 x2 (ix2 n z)
      = Cert.Spec.meanRow (fun o k => x1 (ix2 o k)) (fun o => x2 (ix1 o)) (fun k => x0 (ix2 n k)) := by
  rw [val_main_v7_apply, val_main_v5_apply, val_main_v4_apply, val_main_cst_apply, val_main_v6_apply,
    val_main_cst_0_apply]
  simp only [idx4_5, lin_at, Ideal.hostDivf_def, Ideal.ofBits_def, Ideal.ofBits_zero_f32, zero_add]
  rfl

/-- Feature o of row n, centred (the program computes this twice). -/
theorem cen_at :
    val_main_v9 (F := Ideal) x0 x1 x2 (ix2 n o)
      = Cert.Spec.linRow (fun o k => x1 (ix2 o k)) (fun o => x2 (ix1 o)) (fun k => x0 (ix2 n k)) o
        - Cert.Spec.meanRow (fun o k => x1 (ix2 o k)) (fun o => x2 (ix1 o)) (fun k => x0 (ix2 n k)) := by
  rw [val_main_v9_apply, val_main_v8_apply, idx8, lin_at, mean_at]
  rfl
theorem cen_at' :
    val_main_v16 (F := Ideal) x0 x1 x2 (ix2 n o)
      = Cert.Spec.linRow (fun o k => x1 (ix2 o k)) (fun o => x2 (ix1 o)) (fun k => x0 (ix2 n k)) o
        - Cert.Spec.meanRow (fun o k => x1 (ix2 o k)) (fun o => x2 (ix1 o)) (fun k => x0 (ix2 n k)) := by
  rw [val_main_v16_apply, val_main_v15_apply, idx15, lin_at, mean_at]
  rfl

/-- The variance of row n. -/
theorem var_at :
    val_main_v14 (F := Ideal) x0 x1 x2 (ix2 n z)
      = Cert.Spec.varRow (fun o k => x1 (ix2 o k)) (fun o => x2 (ix1 o)) (fun k => x0 (ix2 n k)) := by
  rw [val_main_v14_apply, val_main_v12_apply, val_main_v11_apply, val_main_cst_1_apply, val_main_v13_apply,
    val_main_cst_2_apply]
  simp only [idx11_12, val_main_v10_apply, cen_at, Ideal.hostDivf_def, Ideal.mulf_def, Ideal.ofBits_def,
    Ideal.ofBits_zero_f32, zero_add]
  rfl

/-- The reciprocal root of the variance of row n plus epsilon. -/
theorem rs_at :
    val_main_v19 (F := Ideal) x0 x1 x2 (ix2 n z)
      = Ideal.rsqrt (Cert.Spec.varRow (fun o k => x1 (ix2 o k)) (fun o => x2 (ix1 o)) (fun k => x0 (ix2 n k))
          + Cert.Spec.eps) := by
  rw [val_main_v19_apply, val_main_v18_apply, var_at, val_main_v17_apply, val_main_cst_3_apply]
  rfl

/-- The normalised activation at row n, feature o. -/
theorem hn_at :
    val_main_v27 (F := Ideal) x0 x1 x2 x3 x4 (ix2 n o)
      = Cert.Spec.hnRow (fun o k => x1 (ix2 o k)) (fun o => x2 (ix1 o)) (fun o => x3 (ix1 o)) (fun o => x4 (ix1 o))
          (fun k => x0 (ix2 n k)) o := by
  rw [val_main_v27_apply, val_main_v24_apply, val_main_v21_apply, cen_at', val_main_v20_apply, idx20, rs_at,
    val_main_v23_apply, val_main_v22_apply, idx22_23, val_main_v26_apply, val_main_v25_apply, idx25_26]
  rfl

end Stages

/-! ## The two statements -/

/-- THE NORMALISED ACTIVATION at an index: the specification's normalised row of that index's row, at its feature. -/
theorem hn_apply (x0 : (⟨S4096x2048, .f32⟩ : BufTy).Contents (Elt Ideal)) (x1 : (⟨S2048x2048, .f32⟩ : BufTy).Contents (Elt Ideal))
    (x2 x3 x4 : (⟨S2048, .f32⟩ : BufTy).Contents (Elt Ideal)) (i : S4096x2048.Idx) :
    val_main_v27 (F := Ideal) x0 x1 x2 x3 x4 i
      = Cert.Spec.hnRow (fun o k => x1 (ix2 o k)) (fun o => x2 (ix1 o)) (fun o => x3 (ix1 o)) (fun o => x4 (ix1 o))
          (fun k => x0 (ix2 (i 0) k)) (i 1) := by
  obtain ⟨n, o, rfl⟩ : ∃ (n : Fin 4096) (o : Fin 2048), i = ix2 n o := ⟨i 0, i 1, eq_ix2 i⟩
  exact hn_at x0 x1 x2 x3 x4 n o

/-- THE RESULT at an index: the normalised row of the index's row against the weight row of its column, plus that
    column's bias. -/
theorem out_apply (x0 : (⟨S4096x2048, .f32⟩ : BufTy).Contents (Elt Ideal)) (x1 : (⟨S2048x2048, .f32⟩ : BufTy).Contents (Elt Ideal))
    (x2 x3 x4 : (⟨S2048, .f32⟩ : BufTy).Contents (Elt Ideal)) (x5 : (⟨S30000x2048, .f32⟩ : BufTy).Contents (Elt Ideal))
    (x6 : (⟨S30000, .f32⟩ : BufTy).Contents (Elt Ideal)) (i : S4096x30000.Idx) :
    val_main_v31 (F := Ideal) x0 x1 x2 x3 x4 x5 x6 i
      = Cert.Spec.logit (fun k => x5 (ix2 (i 1) k)) (x6 (ix1 (i 1)))
          (fun k => val_main_v27 (F := Ideal) x0 x1 x2 x3 x4 (ix2 (i 0) k)) := by
  obtain ⟨n, c, rfl⟩ : ∃ (n : Fin 4096) (c : Fin 30000), i = ix2 n c := ⟨i 0, i 1, eq_ix2 i⟩
  rw [val_main_v31_apply, val_main_v28_apply, val_main_v30_apply, val_main_v29_apply, idx29_30]
  simp only [lidx28, ridx28]
  rfl

end Cert.RefSide

end
-- ==== Proof.PaySide0.lean ====
/-
  The first kernel body's stored value, read at one index, as plain arithmetic on the extended reals.

  The stored value is a term over whole vectors: a contraction of two matrices over their last axes, a bias row
  repeated over the rows, and a normalisation of every row over its 2048 lanes. Read at the
  index (p, q) every pointwise operation reads its operands at (p, q); the operations that move data are read by
  one small lemma each, at explicit coordinates: a contraction is the sum over the contracted coordinate, a row
  sum is the sum over the lane coordinate, a row repeated over the rows is that row, a column of row statistics
  repeated over the lanes is the row's statistic, and a cast between equal shapes is the identity.
-/
import proofs.«117770_j56444460204607_2_alg».proof.Proof.Gen.KernelIdeal.Skeleton
import proofs.«117770_j56444460204607_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.PaySide

open Idealize.ShloMosaic Idealize.SL.Sem Idealize.ShloMosaic.ValueIdx Cert.KernelIdeal Cert.KernelIdeal.Gen

variable {α : Type}

/-! ## The two layout operations around a column of row statistics -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector reads, at an index, the reciprocal square root of the element. -/
theorem rsqrt_apply {s : Shape} {φ : FTy} (a : FVec Ideal s φ) (i : s.Idx) : rsqrt a i = Ideal.rsqrt (a i) := rfl

/-! ## The contraction -/

theorem mm0_lhs0 (i : S512x2048.Idx) (c : dot_S512x2048_S2048x2048_S512x2048_1_1_0_0_n_n.contr.Idx) :
    (dot_S512x2048_S2048x2048_S512x2048_1_1_0_0_n_n.lhsIdx i c 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem mm0_lhs1 (i : S512x2048.Idx) (c : dot_S512x2048_S2048x2048_S512x2048_1_1_0_0_n_n.contr.Idx) :
    (dot_S512x2048_S2048x2048_S512x2048_1_1_0_0_n_n.lhsIdx i c 1).val = (c ⟨0, by decide⟩).val :=
  dot_S512x2048_S2048x2048_S512x2048_1_1_0_0_n_n.lhsIdx_val_of_single rfl i c
theorem mm0_rhs0 (i : S512x2048.Idx) (c : dot_S512x2048_S2048x2048_S512x2048_1_1_0_0_n_n.contr.Idx) :
    (dot_S512x2048_S2048x2048_S512x2048_1_1_0_0_n_n.rhsIdx i c 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem mm0_rhs1 (i : S512x2048.Idx) (c : dot_S512x2048_S2048x2048_S512x2048_1_1_0_0_n_n.contr.Idx) :
    (dot_S512x2048_S2048x2048_S512x2048_1_1_0_0_n_n.rhsIdx i c 1).val = (c ⟨0, by decide⟩).val :=
  dot_S512x2048_S2048x2048_S512x2048_1_1_0_0_n_n.rhsIdx_val_of_single rfl i c

/-- The contraction into the zero accumulator, at (p, q): row p of the left operand against row q of the right one,
    summed over the 2048 contracted coordinates. -/
theorem mm0_apply (A : FVec Ideal S512x2048 .bf16) (B : FVec Ideal S2048x2048 .bf16) (p : Fin 512) (q : Fin 2048) :
    matmul dot_S512x2048_S2048x2048_S512x2048_1_1_0_0_n_n none A B (constant S512x2048 .f32 0x00000000#32) (ix2 p q)
      = ∑ k : Fin 2048, A (ix2 p k) * B (ix2 q k) := by
  refine (Ideal.matmul_constant_zero_apply dot_S512x2048_S2048x2048_S512x2048_1_1_0_0_n_n none A B (ix2 p q)).trans ?_
  rw [← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun a => Fin.ext (by
    match a with
    | ⟨0, _⟩ => exact mm0_lhs0 _ _
    | ⟨1, _⟩ => exact (mm0_lhs1 _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun a => Fin.ext (by
    match a with
    | ⟨0, _⟩ => exact mm0_rhs0 _ _
    | ⟨1, _⟩ => exact (mm0_rhs1 _ _).trans hk)
  rw [el, er]

/-! ## A row sum, and a row statistic -/

/-- The sum of a `[512, 2048]` block over its lanes, at row `r`: the sum over the lane coordinate. -/
theorem rowSum_apply (V : FVec Ideal S512x2048 .f32) (h : S512x2048.Reduces [1] S512) (hφ : FKind.Formats .f32)
    (hacc : (0x00000000#32 : BitVec 32) = FKind.add.neutral .f32 hφ) (r : Fin 512) :
    multiReduction .add [1] S512 V 0x00000000#32 h hφ hacc (ix1 r) = ∑ k : Fin 2048, V (ix2 r k) := by
  refine (Ideal.multiReduction_add_single V 0x00000000#32 h hφ hacc (ix1 r)).trans ?_
  exact Finset.sum_congr rfl fun k _ => congrArg V (funext fun a => Fin.ext (by
    match a with
    | ⟨0, _⟩ => rfl
    | ⟨1, _⟩ => rfl))

/-- The column of a block's row sums, each divided by the float 2048: how the body takes a mean over the lanes. -/
def meanV (V : FVec Ideal S512x2048 .f32) : FVec Ideal S512x1 .f32 :=
  divf (shapeCast S512x1 (multiReduction .add [1] S512 V 0x00000000#32 reduces_S512x2048_S512 (.inl rfl) rfl) shapeCasts_S512_S512x1)
    (broadcast S512x1 (Scalar.ofBits .f32 0x45000000#32))

/-- That column at row `p`: the row's sum divided by the float 2048. -/
theorem meanV_apply (V : FVec Ideal S512x2048 .f32) (p : Fin 512) (u : Fin 1) :
    meanV V (ix2 p u) = Ideal.div (∑ k : Fin 2048, V (ix2 p k)) Cert.Spec.c2048 := by
  unfold meanV Cert.Spec.c2048
  refine (divf_apply _ _ _).trans ?_
  refine congrArg₂ Ideal.div ?_ rfl
  refine (shapeCast_a_a1_apply _ shapeCasts_S512_S512x1 p u).trans ?_
  exact rowSum_apply V _ _ _ p

/-! ## The first layer's block -/

/-- The first linear layer on the 512-row block: the contraction against the weight, plus the bias row repeated. -/
def linV (X : Vec Ideal S512x2048 .f32) (W : Vec Ideal S2048x2048 .bf16) (B : Vec Ideal S1x2048 .f32) : FVec Ideal S512x2048 .f32 :=
  addf (matmul dot_S512x2048_S2048x2048_S512x2048_1_1_0_0_n_n none (truncf .bf16 X bitsLt_bf16_f32 : FVec Ideal S512x2048 .bf16)
      (shapeCast S2048x2048 W shapeCasts_S2048x2048_S2048x2048 : FVec Ideal S2048x2048 .bf16)
      (constant S512x2048 .f32 0x00000000#32))
    (broadcastTo S512x2048 (shapeCast S1x2048 B shapeCasts_S1x2048_S1x2048 : FVec Ideal S1x2048 .f32) broadcasts_S1x2048_S512x2048)

/-- A `[1, 2048]` row, cast to its own shape and repeated over the 512 rows, reads at `(p, k)` the row at `k`. -/
theorem row_apply (Z : Vec Ideal S1x2048 .f32) (p : Fin 512) (k : Fin 2048) :
    broadcastTo S512x2048 (shapeCast S1x2048 Z shapeCasts_S1x2048_S1x2048 : FVec Ideal S1x2048 .f32) broadcasts_S1x2048_S512x2048 (ix2 p k) = Z (ix2 0 k) := by
  rw [shapeCast_self]
  exact broadcastTo_1b_ab_apply Z _ p k

/-- The block at `(p, k)`: feature `k` of the first layer on row `p`. -/
theorem linV_apply (X : Vec Ideal S512x2048 .f32) (W : Vec Ideal S2048x2048 .bf16) (B : Vec Ideal S1x2048 .f32) (p : Fin 512) (k : Fin 2048) :
    linV X W B (ix2 p k)
      = Cert.Spec.linRow (fun o k => W (ix2 o k)) (fun o => B (ix2 0 o)) (fun k => X (ix2 p k)) k := by
  unfold linV Cert.Spec.linRow
  refine (addf_apply _ _ _).trans (congrArg₂ (· + ·) ?_ (row_apply B p k))
  rw [shapeCast_self]
  exact mm0_apply _ W p k

/-! ## The stored value -/

/-- The first body's stored value as one term over the block `linV` and the statistic `meanV`. -/
theorem k0_pay1_eq (X : Vec Ideal S512x2048 .f32) (W : Vec Ideal S2048x2048 .bf16) (B G Be : Vec Ideal S1x2048 .f32) :
    Cert.KernelIdeal.Gen.k0_pay1 (F := Ideal) X W B G Be
      = truncf .bf16
          (addf
            (mulf
              (mulf (subf (linV X W B) (broadcastTo S512x2048 (meanV (linV X W B)) broadcasts_S512x1_S512x2048))
                (broadcastTo S512x2048
                  (rsqrt (addf
                    (meanV (mulf (subf (linV X W B) (broadcastTo S512x2048 (meanV (linV X W B)) broadcasts_S512x1_S512x2048))
                      (subf (linV X W B) (broadcastTo S512x2048 (meanV (linV X W B)) broadcasts_S512x1_S512x2048))))
                    (broadcast S512x1 (Scalar.ofBits .f32 0x3727C5AC#32))))
                  broadcasts_S512x1_S512x2048))
              (broadcastTo S512x2048 (shapeCast S1x2048 G shapeCasts_S1x2048_S1x2048 : FVec Ideal S1x2048 .f32) broadcasts_S1x2048_S512x2048))
            (broadcastTo S512x2048 (shapeCast S1x2048 Be shapeCasts_S1x2048_S1x2048 : FVec Ideal S1x2048 .f32) broadcasts_S1x2048_S512x2048))
          bitsLt_bf16_f32 := rfl

/-- The first body's stored value at (p, q): feature q of row p's first layer, normalised over the row's 2048
    features, scaled and shifted. -/
theorem pay0_apply (X : Vec Ideal S512x2048 .f32) (W : Vec Ideal S2048x2048 .bf16) (B G Be : Vec Ideal S1x2048 .f32) (p : Fin 512) (q : Fin 2048) :
    Cert.KernelIdeal.Gen.k0_pay1 (F := Ideal) X W B G Be (ValueIdx.ix2 p q)
      = Cert.Spec.hnRow (fun o k => W (ValueIdx.ix2 o k)) (fun o => B (ValueIdx.ix2 0 o)) (fun o => G (ValueIdx.ix2 0 o)) (fun o => Be (ValueIdx.ix2 0 o))
          (fun k => X (ValueIdx.ix2 p k)) q := by
  -- the row's features, its mean, and its centred features, at every lane
  have hL := linV_apply X W B p
  have hM : ∀ k : Fin 2048, broadcastTo S512x2048 (meanV (linV X W B)) broadcasts_S512x1_S512x2048 (ix2 p k)
      = Cert.Spec.meanRow (fun o k => W (ix2 o k)) (fun o => B (ix2 0 o)) (fun k => X (ix2 p k)) := fun k => by
    unfold Cert.Spec.meanRow
    refine (broadcastTo_a1_ab_apply _ _ p k).trans ((meanV_apply _ p 0).trans ?_)
    exact congrArg (fun s => Ideal.div s Cert.Spec.c2048) (Finset.sum_congr rfl fun j _ => hL j)
  have hC : ∀ k : Fin 2048, subf (linV X W B) (broadcastTo S512x2048 (meanV (linV X W B)) broadcasts_S512x1_S512x2048) (ix2 p k)
      = Cert.Spec.linRow (fun o k => W (ix2 o k)) (fun o => B (ix2 0 o)) (fun k => X (ix2 p k)) k
        - Cert.Spec.meanRow (fun o k => W (ix2 o k)) (fun o => B (ix2 0 o)) (fun k => X (ix2 p k)) := fun k =>
    (subf_apply _ _ _).trans (congrArg₂ (· - ·) (hL k) (hM k))
  refine (congrFun (k0_pay1_eq X W B G Be) (ix2 p q)).trans ?_
  unfold Cert.Spec.hnRow
  refine (truncf_apply (φ := .f32) (ψ := .bf16) _ bitsLt_bf16_f32 (ix2 p q)).trans ?_
  refine (addf_apply _ _ _).trans (congrArg₂ (· + ·) ?_ (row_apply Be p q))
  refine (mulf_apply _ _ _).trans (congrArg₂ (· * ·) ?_ (row_apply G p q))
  refine (mulf_apply _ _ _).trans (congrArg₂ (· * ·) (hC q) ?_)
  -- the reciprocal root of the variance plus epsilon
  refine (broadcastTo_a1_ab_apply _ _ p q).trans ((rsqrt_apply _ _).trans (congrArg Ideal.rsqrt ?_))
  refine (addf_apply _ _ _).trans (congrArg₂ (· + ·) ?_ rfl)
  unfold Cert.Spec.varRow
  refine (meanV_apply _ p 0).trans ?_
  exact congrArg (fun s => Ideal.div s Cert.Spec.c2048) (Finset.sum_congr rfl fun j _ =>
    (mulf_apply _ _ _).trans (congrArg₂ (· * ·) (hC j) (hC j)))

end Cert.PaySide

end
-- ==== Proof.PaySide1.lean ====
/-
  The second kernel body's stored value, read at one index, as plain arithmetic on the extended reals.

  The stored value is a term over whole vectors: a contraction of two matrices over their last axes plus a bias
  row repeated over the rows. Read at the index (p, q) the sum reads its operands at (p, q); the contraction is
  the sum over the contracted coordinate, the row repeated over the rows is that row, and a cast between equal
  shapes is the identity.
-/
import proofs.«117770_j56444460204607_2_alg».proof.Proof.Gen.KernelIdeal.Skeleton
import proofs.«117770_j56444460204607_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.PaySide

open Idealize.ShloMosaic Idealize.SL.Sem Idealize.ShloMosaic.ValueIdx Cert.KernelIdeal Cert.KernelIdeal.Gen

/-! ## The second body: a contraction plus a bias row -/

theorem mm1_lhs0 (i : S1024x1280.Idx) (c : dot_S1024x2048_S1280x2048_S1024x1280_1_1_0_0_n_n.contr.Idx) :
    (dot_S1024x2048_S1280x2048_S1024x1280_1_1_0_0_n_n.lhsIdx i c 0).val = (i 0).val := by
  unfold DotDims.lhsIdx
  rw [dif_neg (show ¬(0 : Fin S1024x2048.rank) ∈ dot_S1024x2048_S1280x2048_S1024x1280_1_1_0_0_n_n.lhsBatch by decide), dif_pos (show (0 : Fin S1024x2048.rank) ∈ dot_S1024x2048_S1280x2048_S1024x1280_1_1_0_0_n_n.lhsNonContracting by decide)]
  rfl
theorem mm1_lhs1 (i : S1024x1280.Idx) (c : dot_S1024x2048_S1280x2048_S1024x1280_1_1_0_0_n_n.contr.Idx) :
    (dot_S1024x2048_S1280x2048_S1024x1280_1_1_0_0_n_n.lhsIdx i c 1).val = (c ⟨0, by decide⟩).val :=
  dot_S1024x2048_S1280x2048_S1024x1280_1_1_0_0_n_n.lhsIdx_val_of_single rfl i c
theorem mm1_rhs0 (i : S1024x1280.Idx) (c : dot_S1024x2048_S1280x2048_S1024x1280_1_1_0_0_n_n.contr.Idx) :
    (dot_S1024x2048_S1280x2048_S1024x1280_1_1_0_0_n_n.rhsIdx i c 0).val = (i 1).val := by
  unfold DotDims.rhsIdx
  rw [dif_neg (show ¬(0 : Fin S1280x2048.rank) ∈ dot_S1024x2048_S1280x2048_S1024x1280_1_1_0_0_n_n.rhsBatch by decide), dif_pos (show (0 : Fin S1280x2048.rank) ∈ dot_S1024x2048_S1280x2048_S1024x1280_1_1_0_0_n_n.rhsNonContracting by decide)]
  rfl
theorem mm1_rhs1 (i : S1024x1280.Idx) (c : dot_S1024x2048_S1280x2048_S1024x1280_1_1_0_0_n_n.contr.Idx) :
    (dot_S1024x2048_S1280x2048_S1024x1280_1_1_0_0_n_n.rhsIdx i c 1).val = (c ⟨0, by decide⟩).val :=
  dot_S1024x2048_S1280x2048_S1024x1280_1_1_0_0_n_n.rhsIdx_val_of_single rfl i c

/-- The contraction into the zero accumulator, at (p, q): row p of the left operand against row q of the right one,
    summed over the 2048 contracted coordinates. -/
theorem mm1_apply (A : FVec Ideal S1024x2048 .bf16) (B : FVec Ideal S1280x2048 .bf16) (p : Fin 1024) (q : Fin 1280) :
    matmul dot_S1024x2048_S1280x2048_S1024x1280_1_1_0_0_n_n none A B (constant S1024x1280 .f32 0x00000000#32) (ix2 p q)
      = ∑ k : Fin 2048, A (ix2 p k) * B (ix2 q k) := by
  refine (Ideal.matmul_constant_zero_apply dot_S1024x2048_S1280x2048_S1024x1280_1_1_0_0_n_n none A B (ix2 p q)).trans ?_
  rw [← Equiv.sum_comp (ValueIdx.contrEquiv1 dot_S1024x2048_S1280x2048_S1024x1280_1_1_0_0_n_n 2048 rfl rfl).symm]
  refine Finset.sum_congr rfl fun k _ => ?_
  have hk := ValueIdx.contrEquiv1_symm_val dot_S1024x2048_S1280x2048_S1024x1280_1_1_0_0_n_n 2048 rfl rfl k
  have el : dot_S1024x2048_S1280x2048_S1024x1280_1_1_0_0_n_n.lhsIdx (ix2 p q) ((ValueIdx.contrEquiv1 dot_S1024x2048_S1280x2048_S1024x1280_1_1_0_0_n_n 2048 rfl rfl).symm k) = ix2 p k := funext fun a => Fin.ext (by
    match a with
    | ⟨0, _⟩ => exact mm1_lhs0 _ _
    | ⟨1, _⟩ => exact (mm1_lhs1 _ _).trans hk)
  have er : dot_S1024x2048_S1280x2048_S1024x1280_1_1_0_0_n_n.rhsIdx (ix2 p q) ((ValueIdx.contrEquiv1 dot_S1024x2048_S1280x2048_S1024x1280_1_1_0_0_n_n 2048 rfl rfl).symm k) = ix2 q k := funext fun a => Fin.ext (by
    match a with
    | ⟨0, _⟩ => exact mm1_rhs0 _ _
    | ⟨1, _⟩ => exact (mm1_rhs1 _ _).trans hk)
  rw [el, er]

/-- The second body's stored value at (p, q): the normalised row p against weight row q, plus bias entry q. -/
theorem pay1_apply (H : Vec Ideal S1024x2048 .bf16) (W3 : Vec Ideal S1280x2048 .bf16) (B3 : Vec Ideal S1x1280 .f32) (p : Fin 1024) (q : Fin 1280) :
    Cert.KernelIdeal.Gen.k1_pay1 (F := Ideal) H W3 B3 (ValueIdx.ix2 p q)
      = Cert.Spec.logit (fun k => W3 (ValueIdx.ix2 q k)) (B3 (ValueIdx.ix2 0 q)) (fun k => H (ValueIdx.ix2 p k)) := by
  unfold Cert.KernelIdeal.Gen.k1_pay1 Cert.Spec.logit
  rw [shapeCast_self, shapeCast_self, shapeCast_self]
  refine (addf_apply _ _ (ix2 p q)).trans ?_
  refine congrArg₂ (· + ·) (mm1_apply H W3 p q) ?_
  exact broadcastTo_1b_ab_apply B3 _ p q

end Cert.PaySide

end
-- ==== Proof.Assemble.lean ====
/-
  The second kernel region's result array, after the run, is the reference's result: by blocks it is the second
  linear layer of the first region's result array (every 1280-column block's written-back part an entry-by-entry
  function of one normalised row, one weight row and one bias entry), the first region's result array is by blocks
  the layer-normalised first linear layer of the arguments, the buffers the host operations wrote hold the arguments
  re-laid (a change of float format is the identity on the extended reals), and the reference's stages read at an
  index are the same sums.
-/
import proofs.«117770_j56444460204607_2_alg».proof.Proof.Gen.KernelIdeal.Launch
import proofs.«117770_j56444460204607_2_alg».proof.Proof.Gen.KernelIdeal.Skeleton
import proofs.«117770_j56444460204607_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117770_j56444460204607_2_alg».proof.Proof.Gen.ReferenceIdeal.Read
import proofs.«117770_j56444460204607_2_alg».proof.Proof.RunI
import proofs.«117770_j56444460204607_2_alg».proof.Proof.Final0
import proofs.«117770_j56444460204607_2_alg».proof.Proof.Final
import proofs.«117770_j56444460204607_2_alg».proof.Proof.Bridge
import proofs.«117770_j56444460204607_2_alg».proof.Proof.RefSide
import proofs.«117770_j56444460204607_2_alg».proof.Proof.PaySide0
import proofs.«117770_j56444460204607_2_alg».proof.Proof.PaySide1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-- The normalised feature depends on its arguments entry by entry. -/
theorem hnRow_ext {w1 w1' : Fin 2048 → Fin 2048 → EReal} {b1 b1' g g' be be' xr xr' : Fin 2048 → EReal} {o o' : Fin 2048}
    (h1 : ∀ o k, w1 o k = w1' o k) (h2 : ∀ o, b1 o = b1' o) (h3 : ∀ o, g o = g' o) (h4 : ∀ o, be o = be' o)
    (h5 : ∀ k, xr k = xr' k) (h6 : o = o') :
    Cert.Spec.hnRow w1 b1 g be xr o = Cert.Spec.hnRow w1' b1' g' be' xr' o' := by
  obtain rfl : w1 = w1' := funext fun o => funext fun k => h1 o k
  obtain rfl : b1 = b1' := funext h2
  obtain rfl : g = g' := funext h3
  obtain rfl : be = be' := funext h4
  obtain rfl : xr = xr' := funext h5
  rw [h6]

/-- So does an entry of the second layer. -/
theorem logit_ext {w3r w3r' hr hr' : Fin 2048 → EReal} {b b' : EReal}
    (h1 : ∀ k, w3r k = w3r' k) (h2 : b = b') (h3 : ∀ k, hr k = hr' k) :
    Cert.Spec.logit w3r b hr = Cert.Spec.logit w3r' b' hr' := by
  obtain rfl : w3r = w3r' := funext h1
  obtain rfl : hr = hr' := funext h3
  rw [h2]

variable (m : (ℓ : Loc nD τ sig) → Buf (Elt Ideal) ℓ)

/-- What the second region's write-backs leave in the result array is the reference's last stage of the arguments. -/
theorem kernel_value (c : Dev nD) :
    (dat1 (F := Ideal) (V3 m) c).arrAt 3 cfg1.N
      = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [final1 (V3 m) c Cert.PaySide.pay1_apply]
  funext i
  obtain ⟨n, v, rfl⟩ : ∃ (n : Fin 4096) (v : Fin 30000), i = ix2 n v := ⟨i 0, i 1, eq_ix2 i⟩
  rw [Cert.RefSide.out_apply]
  have h4 : ∀ k : Fin 2048, (V3 m c main_v4 : S4096x2048.Idx → EReal) (ix2 n k)
      = Cert.ReferenceIdeal.Read.val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n k) := fun k => by
    rw [V3_v4, final0 (V1 m) c Cert.PaySide.pay0_apply, Cert.RefSide.hn_apply]
    exact hnRow_ext (fun o k' => V1_v0 m c o k') (fun o => V1_v1 m c o) (fun o => V1_v2 m c o) (fun o => V1_v3 m c o)
      (fun k' => congrFun (V1_arg0 m c) (ix2 n k')) rfl
  exact logit_ext (fun k => V3_v5 m c v k) (V3_v6 m c v) (fun k => h4 k)

end Cert.KernelIdeal.Hand

end
-- ==== Proof.lean ====
/-
  The certificate of a two-layer projection head — a linear layer 2048 → 2048 with bias, layer normalisation over the
  2048 features, a linear layer 2048 → 30000 with bias — computed by two pipelined kernels (the first fusing the
  first layer and the normalisation over blocks of 512 rows; the second producing 1024 × 1280 blocks of the result,
  the last column block cut at the array's end) against the same network written with whole-array operations.

  Five claims. Each program runs to the end, faults nowhere and leaves its seven arguments alone: the reference by its
  operations' composed run; the kernel program by a run through its four segments (host operations, first region, host
  operations, second region) — at the word level with the second region's cut windows at contents nothing names, since
  a matrix product's entry is there not known to depend on one row of each operand alone; at the extended reals with
  every buffer's contents named. No operation was rewritten on the way to the extended reals. And at the extended reals,
  from memories agreeing on the arguments, both programs end with the same result: a change of float format is the
  identity there, a matrix product into a zero accumulator and a lane sum are plain sums, so both sides are, entry by
  entry, the same expression in the arguments — no algebraic law beyond that is used, and the precondition is not opened.
-/
import proofs.«117770_j56444460204607_2_alg».proof.Defs
import proofs.«117770_j56444460204607_2_alg».proof.Proof.Gen.Kernel
import proofs.«117770_j56444460204607_2_alg».proof.Proof.Gen.KernelIdeal
import proofs.«117770_j56444460204607_2_alg».proof.Proof.Gen.ReferenceIdeal
import proofs.«117770_j56444460204607_2_alg».proof.Proof.Gen.Pre_finite_inputs
import proofs.«117770_j56444460204607_2_alg».proof.Proof.Gen.ReferenceIdeal.Read
import proofs.«117770_j56444460204607_2_alg».proof.Proof.RunK
import proofs.«117770_j56444460204607_2_alg».proof.Proof.Assemble
import Idealize.ShloMosaic.Adequacy
import Idealize.ShloMosaic.Init

noncomputable section

namespace Cert.Proof

open Idealize.ShloMosaic Idealize.ShloMosaic.TcCoe Idealize.SL.Sem

/-- The program as printed, at the word level. -/
theorem frame_k : @Cert.frame_Kernel Cert.Kernel.Gen.facts Cert.Pre_finite_inputs.Gen.facts :=
  fun m ρ _ => Cert.Kernel.Hand.frameK (F := Bits) m ρ

section Ideal

open Cert.KernelIdeal Cert.KernelIdeal.Gen Cert.KernelIdeal.Hand

/-- The second kernel's arithmetic is local at the extended reals. -/
theorem hind : FillIndep (F := Ideal) := fillIndep Cert.PaySide.pay1_apply

/-- The idealized program. -/
theorem frame_ki : @Cert.frame_KernelIdeal Cert.KernelIdeal.Gen.facts Cert.Pre_finite_inputs.Gen.facts :=
  fun m ρ _ => (θ_run Cert.KernelIdeal.defs _ _).mono
    (fun r h c => ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩)
    (run (F := Ideal) m ρ hind)

end Ideal

/-- The reference: its operations' composed run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

section Alg

open Cert.KernelIdeal Cert.KernelIdeal.Gen Cert.KernelIdeal.Hand

/-- Both idealized programs end with the reference's last stage of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)), ?_, ?_⟩
  · exact (θ_run Cert.KernelIdeal.defs _ _).mono
      (fun r h c => ⟨((h c _ (mem_uc main_v7 (by decide))).trans (W4_arr m c 3)).trans (kernel_value m c),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c),
        (h c _ (mem_uc main_arg4 (by decide))).trans (W4_main_arg4 m c),
        (h c _ (mem_uc main_arg5 (by decide))).trans (W4_main_arg5 m c),
        (h c _ (mem_uc main_arg6 (by decide))).trans (W4_main_arg6 m c)⟩)
      (run (F := Ideal) m ρ hind)
  · refine (θ_run Cert.ReferenceIdeal.defs _ _).mono (fun r h c => ⟨?_, (h c).2⟩) (Cert.ReferenceIdeal.Value.run (F := Ideal) m' ρ')
    rw [(h c).1, Cert.ReferenceIdeal.Read.val_main_v31_eq, (hagree c).1, (hagree c).2.1, (hagree c).2.2.1, (hagree c).2.2.2.1,
      (hagree c).2.2.2.2.1, (hagree c).2.2.2.2.2.1, (hagree c).2.2.2.2.2.2]

end Alg

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
